-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x26x128 : Shape := ⟨3, ![32768, 26, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x26x128 : S_.BroadcastsInDim S32768x26x128 (![] : Fin 0 → Fin S32768x26x128.rank)
  reducesTo_S32768x26x128_S_d0_1_2 : S32768x26x128.ReducesTo [0, 1, 2] S_

variable [Facts]

def fn {F : FTy → Type} [FloatOps F] (main_arg0 : FVec F S32768x128 .f32) (main_arg1 : FVec F S32768x26x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x26x128 .f32 := Host.absf main_arg1
  let main_cst_0 : FVec F S_ .f32 := constant S_ .f32 0x7F800000#32
  let main_v5 : FVec F S32768x26x128 .f32 := broadcastInDim S32768x26x128 ![] bcast_S_S32768x26x128 main_cst_0
  let main_v6 : IVec S32768x26x128 1 := cmpf .olt main_v4 main_v5
  let main_c_1 : IVec S_ 1 := constantI S_ 1 1#1
  let main_v7 : IVec S_ 1 := (fun x v => Host.reduce IntOp.andi x v reducesTo_S32768x26x128_S_d0_1_2 h_S_) main_v6 main_c_1
  let main_v8 : IVec S_ 1 := andi main_v3 main_v7
  main_v8
-- ==== Kernel.lean ====
abbrev S32768x128 : Shape := ⟨2, ![32768, 128]⟩
abbrev S32768x26x128 : Shape := ⟨3, ![32768, 26, 128]⟩
abbrev S32768x506 : Shape := ⟨2, ![32768, 506]⟩
abbrev S512x128 : Shape := ⟨2, ![512, 128]⟩
abbrev S512x26x128 : Shape := ⟨3, ![512, 26, 128]⟩
abbrev S512x506 : Shape := ⟨2, ![512, 506]⟩
abbrev S8x128 : Shape := ⟨2, ![8, 128]⟩
abbrev S8x26x128 : Shape := ⟨3, ![8, 26, 128]⟩
abbrev S8x1x128 : Shape := ⟨3, ![8, 1, 128]⟩
abbrev S8x27x128 : Shape := ⟨3, ![8, 27, 128]⟩
abbrev S216x128 : Shape := ⟨2, ![216, 128]⟩
abbrev S216x216 : Shape := ⟨2, ![216, 216]⟩
abbrev S27x27 : Shape := ⟨2, ![27, 27]⟩
abbrev S1x27x27 : Shape := ⟨3, ![1, 27, 27]⟩
abbrev S8x27x27 : Shape := ⟨3, ![8, 27, 27]⟩
abbrev S8x1x27 : Shape := ⟨3, ![8, 1, 27]⟩
abbrev S8x27 : Shape := ⟨2, ![8, 27]⟩
abbrev S8x1x26 : Shape := ⟨3, ![8, 1, 26]⟩
abbrev S8x26 : Shape := ⟨2, ![8, 26]⟩
abbrev S8x1x25 : Shape := ⟨3, ![8, 1, 25]⟩
abbrev S8x25 : Shape := ⟨2, ![8, 25]⟩
abbrev S8x1x24 : Shape := ⟨3, ![8, 1, 24]⟩
abbrev S8x24 : Shape := ⟨2, ![8, 24]⟩
abbrev S8x1x23 : Shape := ⟨3, ![8, 1, 23]⟩
abbrev S8x23 : Shape := ⟨2, ![8, 23]⟩
abbrev S8x1x22 : Shape := ⟨3, ![8, 1, 22]⟩
abbrev S8x22 : Shape := ⟨2, ![8, 22]⟩
abbrev S8x1x21 : Shape := ⟨3, ![8, 1, 21]⟩
abbrev S8x21 : Shape := ⟨2, ![8, 21]⟩
abbrev S8x1x20 : Shape := ⟨3, ![8, 1, 20]⟩
abbrev S8x20 : Shape := ⟨2, ![8, 20]⟩
abbrev S8x1x19 : Shape := ⟨3, ![8, 1, 19]⟩
abbrev S8x19 : Shape := ⟨2, ![8, 19]⟩
abbrev S8x1x18 : Shape := ⟨3, ![8, 1, 18]⟩
abbrev S8x18 : Shape := ⟨2, ![8, 18]⟩
abbrev S8x1x17 : Shape := ⟨3, ![8, 1, 17]⟩
abbrev S8x17 : Shape := ⟨2, ![8, 17]⟩
abbrev S8x1x16 : Shape := ⟨3, ![8, 1, 16]⟩
abbrev S8x16 : Shape := ⟨2, ![8, 16]⟩
abbrev S8x1x15 : Shape := ⟨3, ![8, 1, 15]⟩
abbrev S8x15 : Shape := ⟨2, ![8, 15]⟩
abbrev S8x1x14 : Shape := ⟨3, ![8, 1, 14]⟩
abbrev S8x14 : Shape := ⟨2, ![8, 14]⟩
abbrev S8x1x13 : Shape := ⟨3, ![8, 1, 13]⟩
abbrev S8x13 : Shape := ⟨2, ![8, 13]⟩
abbrev S8x1x12 : Shape := ⟨3, ![8, 1, 12]⟩
abbrev S8x12 : Shape := ⟨2, ![8, 12]⟩
abbrev S8x1x11 : Shape := ⟨3, ![8, 1, 11]⟩
abbrev S8x11 : Shape := ⟨2, ![8, 11]⟩
abbrev S8x1x10 : Shape := ⟨3, ![8, 1, 10]⟩
abbrev S8x10 : Shape := ⟨2, ![8, 10]⟩
abbrev S8x1x9 : Shape := ⟨3, ![8, 1, 9]⟩
abbrev S8x9 : Shape := ⟨2, ![8, 9]⟩
abbrev S8x1x8 : Shape := ⟨3, ![8, 1, 8]⟩
abbrev S8x8 : Shape := ⟨2, ![8, 8]⟩
abbrev S8x1x7 : Shape := ⟨3, ![8, 1, 7]⟩
abbrev S8x7 : Shape := ⟨2, ![8, 7]⟩
abbrev S8x1x6 : Shape := ⟨3, ![8, 1, 6]⟩
abbrev S8x6 : Shape := ⟨2, ![8, 6]⟩
abbrev S8x1x5 : Shape := ⟨3, ![8, 1, 5]⟩
abbrev S8x5 : Shape := ⟨2, ![8, 5]⟩
abbrev S8x1x4 : Shape := ⟨3, ![8, 1, 4]⟩
abbrev S8x4 : Shape := ⟨2, ![8, 4]⟩
abbrev S8x1x3 : Shape := ⟨3, ![8, 1, 3]⟩
abbrev S8x3 : Shape := ⟨2, ![8, 3]⟩
abbrev S8x1x2 : Shape := ⟨3, ![8, 1, 2]⟩
abbrev S8x2 : Shape := ⟨2, ![8, 2]⟩
abbrev S8x1x1 : Shape := ⟨3, ![8, 1, 1]⟩
abbrev S8x1 : Shape := ⟨2, ![8, 1]⟩
abbrev S8x378 : Shape := ⟨2, ![8, 378]⟩

abbrev nBuf : Space → Nat
  | .hbm => 3
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S32768x26x128, .f32⟩
  | .hbm, ⟨2, _⟩ => ⟨S32768x506, .f32⟩
  | .local _ .vmem, ⟨0, _⟩ => ⟨S512x128, .f32⟩
  | .local _ .vmem, ⟨1, _⟩ => ⟨S512x128, .f32⟩
  | .local _ .vmem, ⟨2, _⟩ => ⟨S512x26x128, .f32⟩
  | .local _ .vmem, ⟨3, _⟩ => ⟨S512x26x128, .f32⟩
  | .local _ .vmem, ⟨4, _⟩ => ⟨S512x506, .f32⟩
  | .local _ .vmem, ⟨5, _⟩ => ⟨S512x506, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_mult1 (k0_t1 : Fin k0_t1_loop.trips) : BitVec 32 :=
  let c0_i32_5 : BitVec 32 := 0#32
  let c0_i32 : BitVec 32 := 0#32
  let c1_i32 : BitVec 32 := 1#32
  let arg4 : BitVec 32 := Scf.iv c0_i32 c1_i32 k0_t1
  let c1_i32_4 : BitVec 32 := 1#32
  let v3 : BitVec 32 := Scalar.muli arg4 c1_i32_4
  let v4 : BitVec 32 := Scalar.addi c0_i32_5 v3
  let c8_i32 : BitVec 32 := 8#32
  let v5 : BitVec 32 := Scalar.muli v4 c8_i32
  v5
def k0_off1 (k0_t1 : Fin k0_t1_loop.trips) : Fin 2 → Nat :=
  let c0_i32_5 : BitVec 32 := 0#32
  let c0_i32 : BitVec 32 := 0#32
  let c1_i32 : BitVec 32 := 1#32
  let arg4 : BitVec 32 := Scf.iv c0_i32 c1_i32 k0_t1
  let c1_i32_4 : BitVec 32 := 1#32
  let v3 : BitVec 32 := Scalar.muli arg4 c1_i32_4
  let v4 : BitVec 32 := Scalar.addi c0_i32_5 v3
  let c8_i32 : BitVec 32 := 8#32
  let v5 : BitVec 32 := Scalar.muli v4 c8_i32
  let v6 : BitVec 32 := v5
  let v7 : Index := Scalar.indexCast v6
  let c0_6 : Index := 0#32
  ![v7.toNat, 0]
def k0_off2 (k0_t1 : Fin k0_t1_loop.trips) : Fin 3 → Nat :=
  let c0_i32_5 : BitVec 32 := 0#32
  let c0_i32 : BitVec 32 := 0#32
  let c1_i32 : BitVec 32 := 1#32
  let arg4 : BitVec 32 := Scf.iv c0_i32 c1_i32 k0_t1
  let c1_i32_4 : BitVec 32 := 1#32
  let v3 : BitVec 32 := Scalar.muli arg4 c1_i32_4
  let v4 : BitVec 32 := Scalar.addi c0_i32_5 v3
  let c8_i32 : BitVec 32 := 8#32
  let v5 : BitVec 32 := Scalar.muli v4 c8_i32
  let v6 : BitVec 32 := v5
  let v10 : Index := Scalar.indexCast v6
  let c0_7 : Index := 0#32
  let c0_8 : Index := 0#32
  ![v10.toNat, 0, 0]
def k0_off3 (k0_t1 : Fin k0_t1_loop.trips) : Fin 2 → Nat :=
  let c0_i32_5 : BitVec 32 := 0#32
  let c0_i32 : BitVec 32 := 0#32
  let c1_i32 : BitVec 32 := 1#32
  let arg4 : BitVec 32 := Scf.iv c0_i32 c1_i32 k0_t1
  let c1_i32_4 : BitVec 32 := 1#32
  let v3 : BitVec 32 := Scalar.muli arg4 c1_i32_4
  let v4 : BitVec 32 := Scalar.addi c0_i32_5 v3
  let c8_i32 : BitVec 32 := 8#32
  let v5 : BitVec 32 := Scalar.muli v4 c8_i32
  let v6 : BitVec 32 := v5
  let v89 : Index := Scalar.indexCast v6
  let c128 : Index := 128#32
  ![v89.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x506 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S512x506_S512x128_0_0 : ∀ a, (![0, 0] : Fin 2 → Nat) a + S512x128.size a ≤ S512x506.size a
  h_S8x128 : 0 < S8x128.numel
  bitsLt_bf16_f32 : FTy.bits .bf16 < FTy.bits .f32
  h_S8x26x128 : 0 < S8x26x128.numel
  shapeCasts_S8x128_S8x1x128 : S8x128.ShapeCasts S8x1x128
  concatenates_S8x1x128_S8x26x128_S8x27x128_d1 : Shape.Concatenates [S8x1x128, S8x26x128] S8x27x128 1
  shapeCasts_S8x27x128_S216x128 : S8x27x128.ShapeCasts S216x128
  slices_S216x216_o0_0_S27x27 : S216x216.Slices ![0, 0] S27x27
  slices_S216x216_o27_27_S27x27 : S216x216.Slices ![27, 27] S27x27
  slices_S216x216_o54_54_S27x27 : S216x216.Slices ![54, 54] S27x27
  slices_S216x216_o81_81_S27x27 : S216x216.Slices ![81, 81] S27x27
  slices_S216x216_o108_108_S27x27 : S216x216.Slices ![108, 108] S27x27
  slices_S216x216_o135_135_S27x27 : S216x216.Slices ![135, 135] S27x27
  slices_S216x216_o162_162_S27x27 : S216x216.Slices ![162, 162] S27x27
  slices_S216x216_o189_189_S27x27 : S216x216.Slices ![189, 189] S27x27
  shapeCasts_S27x27_S1x27x27 : S27x27.ShapeCasts S1x27x27
  concatenates_S1x27x27_S1x27x27_S1x27x27_S1x27x27_S1x27x27_S1x27x27_S1x27x27_S1x27x27_S8x27x27_d0 : Shape.Concatenates [S1x27x27, S1x27x27, S1x27x27, S1x27x27, S1x27x27, S1x27x27, S1x27x27, S1x27x27] S8x27x27 0
  slices_S8x27x27_o0_0_0_S8x1x27 : S8x27x27.Slices ![0, 0, 0] S8x1x27
  shapeCasts_S8x1x27_S8x27 : S8x1x27.ShapeCasts S8x27
  slices_S8x27x27_o0_1_1_S8x1x26 : S8x27x27.Slices ![0, 1, 1] S8x1x26
  shapeCasts_S8x1x26_S8x26 : S8x1x26.ShapeCasts S8x26
  slices_S8x27x27_o0_2_2_S8x1x25 : S8x27x27.Slices ![0, 2, 2] S8x1x25
  shapeCasts_S8x1x25_S8x25 : S8x1x25.ShapeCasts S8x25
  slices_S8x27x27_o0_3_3_S8x1x24 : S8x27x27.Slices ![0, 3, 3] S8x1x24
  shapeCasts_S8x1x24_S8x24 : S8x1x24.ShapeCasts S8x24
  slices_S8x27x27_o0_4_4_S8x1x23 : S8x27x27.Slices ![0, 4, 4] S8x1x23
  shapeCasts_S8x1x23_S8x23 : S8x1x23.ShapeCasts S8x23
  slices_S8x27x27_o0_5_5_S8x1x22 : S8x27x27.Slices ![0, 5, 5] S8x1x22
  shapeCasts_S8x1x22_S8x22 : S8x1x22.ShapeCasts S8x22
  slices_S8x27x27_o0_6_6_S8x1x21 : S8x27x27.Slices ![0, 6, 6] S8x1x21
  shapeCasts_S8x1x21_S8x21 : S8x1x21.ShapeCasts S8x21
  slices_S8x27x27_o0_7_7_S8x1x20 : S8x27x27.Slices ![0, 7, 7] S8x1x20
  shapeCasts_S8x1x20_S8x20 : S8x1x20.ShapeCasts S8x20
  slices_S8x27x27_o0_8_8_S8x1x19 : S8x27x27.Slices ![0, 8, 8] S8x1x19
  shapeCasts_S8x1x19_S8x19 : S8x1x19.ShapeCasts S8x19
  slices_S8x27x27_o0_9_9_S8x1x18 : S8x27x27.Slices ![0, 9, 9] S8x1x18
  shapeCasts_S8x1x18_S8x18 : S8x1x18.ShapeCasts S8x18
  slices_S8x27x27_o0_10_10_S8x1x17 : S8x27x27.Slices ![0, 10, 10] S8x1x17
  shapeCasts_S8x1x17_S8x17 : S8x1x17.ShapeCasts S8x17
  slices_S8x27x27_o0_11_11_S8x1x16 : S8x27x27.Slices ![0, 11, 11] S8x1x16
  shapeCasts_S8x1x16_S8x16 : S8x1x16.ShapeCasts S8x16
  slices_S8x27x27_o0_12_12_S8x1x15 : S8x27x27.Slices ![0, 12, 12] S8x1x15
  shapeCasts_S8x1x15_S8x15 : S8x1x15.ShapeCasts S8x15
  slices_S8x27x27_o0_13_13_S8x1x14 : S8x27x27.Slices ![0, 13, 13] S8x1x14
  shapeCasts_S8x1x14_S8x14 : S8x1x14.ShapeCasts S8x14
  slices_S8x27x27_o0_14_14_S8x1x13 : S8x27x27.Slices ![0, 14, 14] S8x1x13
  shapeCasts_S8x1x13_S8x13 : S8x1x13.ShapeCasts S8x13
  slices_S8x27x27_o0_15_15_S8x1x12 : S8x27x27.Slices ![0, 15, 15] S8x1x12
  shapeCasts_S8x1x12_S8x12 : S8x1x12.ShapeCasts S8x12
  slices_S8x27x27_o0_16_16_S8x1x11 : S8x27x27.Slices ![0, 16, 16] S8x1x11
  shapeCasts_S8x1x11_S8x11 : S8x1x11.ShapeCasts S8x11
  slices_S8x27x27_o0_17_17_S8x1x10 : S8x27x27.Slices ![0, 17, 17] S8x1x10
  shapeCasts_S8x1x10_S8x10 : S8x1x10.ShapeCasts S8x10
  slices_S8x27x27_o0_18_18_S8x1x9 : S8x27x27.Slices ![0, 18, 18] S8x1x9
  shapeCasts_S8x1x9_S8x9 : S8x1x9.ShapeCasts S8x9
  slices_S8x27x27_o0_19_19_S8x1x8 : S8x27x27.Slices ![0, 19, 19] S8x1x8
  shapeCasts_S8x1x8_S8x8 : S8x1x8.ShapeCasts S8x8
  slices_S8x27x27_o0_20_20_S8x1x7 : S8x27x27.Slices ![0, 20, 20] S8x1x7
  shapeCasts_S8x1x7_S8x7 : S8x1x7.ShapeCasts S8x7
  slices_S8x27x27_o0_21_21_S8x1x6 : S8x27x27.Slices ![0, 21, 21] S8x1x6
  shapeCasts_S8x1x6_S8x6 : S8x1x6.ShapeCasts S8x6
  slices_S8x27x27_o0_22_22_S8x1x5 : S8x27x27.Slices ![0, 22, 22] S8x1x5
  shapeCasts_S8x1x5_S8x5 : S8x1x5.ShapeCasts S8x5
  slices_S8x27x27_o0_23_23_S8x1x4 : S8x27x27.Slices ![0, 23, 23] S8x1x4
  shapeCasts_S8x1x4_S8x4 : S8x1x4.ShapeCasts S8x4
  slices_S8x27x27_o0_24_24_S8x1x3 : S8x27x27.Slices ![0, 24, 24] S8x1x3
  shapeCasts_S8x1x3_S8x3 : S8x1x3.ShapeCasts S8x3
  slices_S8x27x27_o0_25_25_S8x1x2 : S8x27x27.Slices ![0, 25, 25] S8x1x2
  shapeCasts_S8x1x2_S8x2 : S8x1x2.ShapeCasts S8x2
  slices_S8x27x27_o0_26_26_S8x1x1 : S8x27x27.Slices ![0, 26, 26] S8x1x1
  shapeCasts_S8x1x1_S8x1 : S8x1x1.ShapeCasts S8x1
  concatenates_S8x27_S8x26_S8x25_S8x24_S8x23_S8x22_S8x21_S8x20_S8x19_S8x18_S8x17_S8x16_S8x15_S8x14_S8x13_S8x12_S8x11_S8x10_S8x9_S8x8_S8x7_S8x6_S8x5_S8x4_S8x3_S8x2_S8x1_S8x378_d1 : Shape.Concatenates [S8x27, S8x26, S8x25, S8x24, S8x23, S8x22, S8x21, S8x20, S8x19, S8x18, S8x17, S8x16, S8x15, S8x14, S8x13, S8x12, S8x11, S8x10, S8x9, S8x8, S8x7, S8x6, S8x5, S8x4, S8x3, S8x2, S8x1] S8x378 1
  h_S8x378 : 0 < S8x378.numel
  dot_S216x128_S216x128_S216x216_1_1_0_0_n_n_wf : DotDims.WF S216x128 S216x128 S216x216 [1] [1] [0] [0] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S512x128.size a
  k0_off2_inb : ∀ k0_t1 : Fin k0_t1_loop.trips, ∀ a, (k0_off2 k0_t1) a + S8x26x128.size a ≤ S512x26x128.size a
  k0_off3_inb : ∀ k0_t1 : Fin k0_t1_loop.trips, ∀ a, (k0_off3 k0_t1) a + S8x378.size a ≤ S512x506.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x128.size a ≤ S32768x26x128.size a
  hwx0_1 : ∀ i : grid0.Coords, EltTy.bits .f32 = 32 ∨ (Rect.block (s := S32768x26x128) S512x26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x506.size a ≤ S32768x506.size a
  hwx0_2 : ∀ i : grid0.Coords, EltTy.bits .f32 = 32 ∨ (Rect.block (s := S32768x506) S512x506.size (cc0_transform_2 i) (hinb0_2 i)).WholeWords (EltTy.packing .f32)

variable [Facts₀]

def dot_S216x128_S216x128_S216x216_1_1_0_0_n_n : DotDims S216x128 S216x128 S216x216 where
  lhsContracting := [1]
  rhsContracting := [1]
  lhsNonContracting := [0]
  rhsNonContracting := [0]
  lhsBatch := []
  rhsBatch := []
  wf := dot_S216x128_S216x128_S216x216_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x506.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x26x128 : Shape := ⟨3, ![32768, 26, 128]⟩
abbrev S378 : Shape := ⟨1, ![378]⟩
abbrev S32768x1x128 : Shape := ⟨3, ![32768, 1, 128]⟩
abbrev S32768x27x128 : Shape := ⟨3, ![32768, 27, 128]⟩
abbrev S32768x27x27 : Shape := ⟨3, ![32768, 27, 27]⟩
abbrev S_ : Shape := ⟨0, ![]⟩
abbrev S378x1 : Shape := ⟨2, ![378, 1]⟩
abbrev S378x2 : Shape := ⟨2, ![378, 2]⟩
abbrev S32768x378 : Shape := ⟨2, ![32768, 378]⟩
abbrev S32768x506 : Shape := ⟨2, ![32768, 506]⟩

abbrev nBuf : Space → Nat
  | .hbm => 22
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x26x128, .f32⟩
  | .hbm, ⟨2, _⟩ => ⟨S378, .i32⟩
  | .hbm, ⟨3, _⟩ => ⟨S378, .i1⟩
  | .hbm, ⟨4, _⟩ => ⟨S378, .i32⟩
  | .hbm, ⟨5, _⟩ => ⟨S378, .i1⟩
  | .hbm, ⟨6, _⟩ => ⟨S32768x1x128, .f32⟩
  | .hbm, ⟨7, _⟩ => ⟨S32768x27x128, .f32⟩
  | .hbm, ⟨8, _⟩ => ⟨S32768x27x27, .f32⟩
  | .hbm, ⟨9, _⟩ => ⟨S_, .i32⟩
  | .hbm, ⟨10, _⟩ => ⟨S378, .i32⟩
  | .hbm, ⟨11, _⟩ => ⟨S378, .i32⟩
  | .hbm, ⟨12, _⟩ => ⟨S378, .i32⟩
  | .hbm, ⟨13, _⟩ => ⟨S_, .i32⟩
  | .hbm, ⟨14, _⟩ => ⟨S378, .i32⟩
  | .hbm, ⟨15, _⟩ => ⟨S378, .i32⟩
  | .hbm, ⟨16, _⟩ => ⟨S378, .i32⟩
  | .hbm, ⟨17, _⟩ => ⟨S378x1, .i32⟩
  | .hbm, ⟨18, _⟩ => ⟨S378x1, .i32⟩
  | .hbm, ⟨19, _⟩ => ⟨S378x2, .i32⟩
  | .hbm, ⟨20, _⟩ => ⟨S32768x378, .f32⟩
  | .hbm, ⟨21, _⟩ => ⟨S32768x506, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S32768x128_S32768x1x128_0_2 : S32768x128.BroadcastsInDim S32768x1x128 (![0, 2] : Fin 2 → Fin S32768x1x128.rank)
  concatenates_S32768x1x128_S32768x26x128_S32768x27x128_d1 : Shape.Concatenates [S32768x1x128, S32768x26x128] S32768x27x128 1
  bcast_S_S378 : S_.BroadcastsInDim S378 (![] : Fin 0 → Fin S378.rank)
  bcast_S378_S378x1_0 : S378.BroadcastsInDim S378x1 (![0] : Fin 1 → Fin S378x1.rank)
  concatenates_S378x1_S378x1_S378x2_d1 : Shape.Concatenates [S378x1, S378x1] S378x2 1
  concatenates_S32768x128_S32768x378_S32768x506_d1 : Shape.Concatenates [S32768x128, S32768x378] S32768x506 1
  dot_S32768x27x128_S32768x27x128_S32768x27x27_2_2_1_1_0_0_wf : DotDims.WF S32768x27x128 S32768x27x128 S32768x27x27 [2] [2] [1] [1] [0] [0]
  gather_S32768x27x27_S378x2_S32768x378_0_12_n_n_12_1_3276811_wf : GatherDims.WF S32768x27x27 S378x2 S32768x378 [0] [1, 2] [] [1, 2] [] 1 ![32768, 1, 1]

variable [Facts₀]

def dot_S32768x27x128_S32768x27x128_S32768x27x27_2_2_1_1_0_0 : DotDims S32768x27x128 S32768x27x128 S32768x27x27 where
  lhsContracting := [2]
  rhsContracting := [2]
  lhsNonContracting := [1]
  rhsNonContracting := [1]
  lhsBatch := [0]
  rhsBatch := [0]
  wf := dot_S32768x27x128_S32768x27x128_S32768x27x27_2_2_1_1_0_0_wf
def gather_S32768x27x27_S378x2_S32768x378_0_12_n_n_12_1_3276811 : GatherDims S32768x27x27 S378x2 S32768x378 where
  offsetDims := [0]
  collapsedSliceDims := [1, 2]
  operandBatchingDims := []
  startIndicesBatchingDims := []
  startIndexMap := [1, 2]
  indexVectorDim := 1
  sliceSizes := ![32768, 1, 1]
  wf := gather_S32768x27x27_S378x2_S32768x378_0_12_n_n_12_1_3276811_wf

class Facts : Prop extends Facts₀ where

variable [Facts]
-- ==== Proof.RefRun.lean ====
/-
  The reference program's @main as the list of its 21 host operations, and its run read back: every weakly fair
  execution terminates with the result buffer at the operations' composed pure term of the two arguments, the
  arguments unchanged.

  The composed term, from the inside out: the 27 feature vectors of each batch row (`feats`: the dense vector as
  one more row in front of the 26 sparse ones), their Gram matrices (`gram`: the batched product of `feats` with
  itself, contracted over the vector's 128 entries), the two index tables after jnp's negative-index
  normalisation (`idxRow`, `idxCol`: each table plus 27 where a mask says so, the mask being all false), the
  tables side by side as 378 index pairs (`idxPairs`), the Gram matrices' entries at those pairs (`tri`), and
  the dense vector followed by them (`refTerm`).
-/
import proofs.«168852_j40389872451968_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 21 operations, in order. -/
abbrev ops : List (HloOp τ sig (Elt F)) :=
  [ nullary main_c (fun i => lit0 (S378.rowMajor i)),
    nullary main_c_0 (constantI S378 1 0#1),
    nullary main_c_1 (fun i => lit1 (S378.rowMajor i)),
    nullary main_c_2 (constantI S378 1 0#1),
    unary main_arg0 main_v0 (broadcastInDim S32768x1x128 ![0, 2] bcast_S32768x128_S32768x1x128_0_2 : (⟨S32768x128, .f32⟩ : BufTy).Contents (Elt F) → (⟨S32768x1x128, .f32⟩ : BufTy).Contents (Elt F)),
    binary main_v0 main_arg1 main_v1 ((fun a b => concatenate S32768x27x128 1 [⟨S32768x1x128, a⟩, ⟨S32768x26x128, b⟩] concatenates_S32768x1x128_S32768x26x128_S32768x27x128_d1) : (⟨S32768x1x128, .f32⟩ : BufTy).Contents (Elt F) → (⟨S32768x26x128, .f32⟩ : BufTy).Contents (Elt F) → (⟨S32768x27x128, .f32⟩ : BufTy).Contents (Elt F)),
    binary main_v1 main_v1 main_v2 ((fun l r => Host.dotGeneral dot_S32768x27x128_S32768x27x128_S32768x27x27_2_2_1_1_0_0 none l r) : (⟨S32768x27x128, .f32⟩ : BufTy).Contents (Elt F) → (⟨S32768x27x128, .f32⟩ : BufTy).Contents (Elt F) → (⟨S32768x27x27, .f32⟩ : BufTy).Contents (Elt F)),
    nullary main_c_3 (constantI S_ 32 27#32),
    unary main_c_3 main_v3 (broadcastInDim S378 ![] bcast_S_S378 : (⟨S_, .i32⟩ : BufTy).Contents (Elt F) → (⟨S378, .i32⟩ : BufTy).Contents (Elt F)),
    binary main_c main_v3 main_v4 (addi : (⟨S378, .i32⟩ : BufTy).Contents (Elt F) → (⟨S378, .i32⟩ : BufTy).Contents (Elt F) → (⟨S378, .i32⟩ : BufTy).Contents (Elt F)),
    ternary main_c_0 main_v4 main_c main_v5 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    nullary main_c_4 (constantI S_ 32 27#32),
    unary main_c_4 main_v6 (broadcastInDim S378 ![] bcast_S_S378 : (⟨S_, .i32⟩ : BufTy).Contents (Elt F) → (⟨S378, .i32⟩ : BufTy).Contents (Elt F)),
    binary main_c_1 main_v6 main_v7 (addi : (⟨S378, .i32⟩ : BufTy).Contents (Elt F) → (⟨S378, .i32⟩ : BufTy).Contents (Elt F) → (⟨S378, .i32⟩ : BufTy).Contents (Elt F)),
    ternary main_c_2 main_v7 main_c_1 main_v8 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    unary main_v5 main_v9 (broadcastInDim S378x1 ![0] bcast_S378_S378x1_0 : (⟨S378, .i32⟩ : BufTy).Contents (Elt F) → (⟨S378x1, .i32⟩ : BufTy).Contents (Elt F)),
    unary main_v8 main_v10 (broadcastInDim S378x1 ![0] bcast_S378_S378x1_0 : (⟨S378, .i32⟩ : BufTy).Contents (Elt F) → (⟨S378x1, .i32⟩ : BufTy).Contents (Elt F)),
    binary main_v9 main_v10 main_v11 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)),
    binary main_v2 main_v11 main_v12 ((fun x i => Host.gather gather_S32768x27x27_S378x2_S32768x378_0_12_n_n_12_1_3276811 x i) : (⟨S32768x27x27, .f32⟩ : BufTy).Contents (Elt F) → (⟨S378x2, .i32⟩ : BufTy).Contents (Elt F) → (⟨S32768x378, .f32⟩ : BufTy).Contents (Elt F)),
    binary main_arg0 main_v12 main_v13 ((fun a b => concatenate S32768x506 1 [⟨S32768x128, a⟩, ⟨S32768x378, b⟩] concatenates_S32768x128_S32768x378_S32768x506_d1) : (⟨S32768x128, .f32⟩ : BufTy).Contents (Elt F) → (⟨S32768x378, .f32⟩ : BufTy).Contents (Elt F) → (⟨S32768x506, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
   binary_bufs_sub .., nullary_bufs_sub .., unary_bufs_sub .., binary_bufs_sub .., ternary_bufs_sub .., nullary_bufs_sub ..,
   unary_bufs_sub .., binary_bufs_sub .., ternary_bufs_sub .., unary_bufs_sub .., unary_bufs_sub .., binary_bufs_sub ..,
   binary_bufs_sub .., binary_bufs_sub ..⟩

/-! ## The composed term, by stages -/

/-- The 27 feature vectors of each batch row: the dense vector as one row, in front of the 26 sparse ones. -/
def feats (D : (⟨S32768x128, .f32⟩ : BufTy).Contents (Elt F)) (Sp : (⟨S32768x26x128, .f32⟩ : BufTy).Contents (Elt F)) :
    (⟨S32768x27x128, .f32⟩ : BufTy).Contents (Elt F) :=
  concatenate S32768x27x128 1 [⟨S32768x1x128, broadcastInDim S32768x1x128 ![0, 2] bcast_S32768x128_S32768x1x128_0_2 D⟩, ⟨S32768x26x128, Sp⟩]
    concatenates_S32768x1x128_S32768x26x128_S32768x27x128_d1

/-- Each batch row's 27 × 27 Gram matrix: the batched product of the feature vectors with themselves. -/
def gram (V : (⟨S32768x27x128, .f32⟩ : BufTy).Contents (Elt F)) : (⟨S32768x27x27, .f32⟩ : BufTy).Contents (Elt F) :=
  Host.dotGeneral dot_S32768x27x128_S32768x27x128_S32768x27x27_2_2_1_1_0_0 none V V

/-- An index table after jnp's negative-index normalisation: the table plus 27 where the mask is set, the mask all false. -/
def normIdx (tbl : Fin 378 → BitVec 32) : (⟨S378, .i32⟩ : BufTy).Contents (Elt F) :=
  select (constantI S378 1 0#1)
    (addi (fun i => tbl (S378.rowMajor i)) (broadcastInDim S378 ![] bcast_S_S378 (constantI S_ 32 27#32)))
    (fun i => tbl (S378.rowMajor i))

/-- The two normalised tables side by side: 378 index pairs (row, column). -/
def idxPairs : (⟨S378x2, .i32⟩ : BufTy).Contents (Elt F) :=
  concatenate S378x2 1 [⟨S378x1, broadcastInDim S378x1 ![0] bcast_S378_S378x1_0 (normIdx (F := F) lit0)⟩,
      ⟨S378x1, broadcastInDim S378x1 ![0] bcast_S378_S378x1_0 (normIdx (F := F) lit1)⟩]
    concatenates_S378x1_S378x1_S378x2_d1

/-- The Gram matrices' entries at the 378 index pairs. -/
def tri (Gm : (⟨S32768x27x27, .f32⟩ : BufTy).Contents (Elt F)) : (⟨S32768x378, .f32⟩ : BufTy).Contents (Elt F) :=
  Host.gather gather_S32768x27x27_S378x2_S32768x378_0_12_n_n_12_1_3276811 Gm (idxPairs (F := F))

/-- The reference's result as a function of its two arguments: the dense vector, then the gathered Gram entries. -/
def refTerm (D : (⟨S32768x128, .f32⟩ : BufTy).Contents (Elt F)) (Sp : (⟨S32768x26x128, .f32⟩ : BufTy).Contents (Elt F)) :
    (⟨S32768x506, .f32⟩ : BufTy).Contents (Elt F) :=
  concatenate S32768x506 1 [⟨S32768x128, D⟩, ⟨S32768x378, tri (gram (feats D Sp))⟩]
    concatenates_S32768x128_S32768x378_S32768x506_d1

/-- On every device, for any float values, from any memory with zero counters: every weakly fair execution of
    @main terminates with the result at the operations' composed term of the arguments and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (by after_results; rfl),
      (h c main_arg0).trans (by after_results),
      (h c main_arg1).trans (by after_results)⟩)
    (run_seq scopedRefs_eq scopedSems_eq defs main (fun _ => ops) main_eq (fun _ => ops_sub) m ρ)

end Cert.RefSide

end
-- ==== Proof.Spec.lean ====
/-
  The function both programs compute, stated once over the argument arrays.

  A batch row `b` carries 27 feature vectors of length 128: the dense one first, then its 26 sparse ones
  (`feat`). The result row has 506 entries: the first 128 repeat the dense vector; entry `128 + p` is the
  inner product of feature vectors `triRow p` and `triCol p`, where `(triRow p, triCol p)` is the `p`-th
  pair `r ≤ c` of the upper triangle of a 27 × 27 matrix listed row by row (378 pairs). The pairs are taken
  from the two index tables the reference gathers with, clamped into `[0, 26]` as a gather clamps them;
  `triRow_spec` / `triCol_spec` say that the tables are the row-major list of the triangle: the pairs of row
  `r` start at position `r (55 - r) / 2`, and column `c ≥ r` sits `c - r` places further on.
-/
import proofs.«168852_j40389872451968_2_alg».proof.ReferenceIdeal
import Idealize.ShloMosaic.PureOps.Ideal
import Idealize.ShloMosaic.Lib.ValueIdx

noncomputable section

namespace Cert.Spec

open Idealize.ShloMosaic Idealize.ShloMosaic.ValueIdx

/-- Row of the `p`-th upper-triangular pair. -/
def triRow (p : Fin 378) : Fin 27 := ⟨min (Cert.ReferenceIdeal.lit0 p).toInt.toNat 26, by omega⟩

/-- Column of the `p`-th upper-triangular pair. -/
def triCol (p : Fin 378) : Fin 27 := ⟨min (Cert.ReferenceIdeal.lit1 p).toInt.toNat 26, by omega⟩

/-- Where the pairs of row `r` start in the row-major list of the upper triangle: `27 + 26 + … + (28 - r)`. -/
def triStart (r : Nat) : Nat := r * (55 - r) / 2

/-- The tables list the triangle row by row: the `p`-th pair `(r, c)` has `r ≤ c` and `p = triStart r + (c - r)`. -/
theorem tri_spec : ∀ p : Fin 378, (triRow p).val ≤ (triCol p).val ∧ p.val = triStart (triRow p).val + ((triCol p).val - (triRow p).val) := by
  decide +kernel

/-- Feature vector `n` of batch row `b`: the dense vector for `n = 0`, sparse vector `n - 1` otherwise. -/
def feat (D : FVec Ideal ⟨2, ![32768, 128]⟩ .f32) (Sp : FVec Ideal ⟨3, ![32768, 26, 128]⟩ .f32)
    (b : Fin 32768) (n : Fin 27) (d : Fin 128) : EReal :=
  if h : n.val = 0 then D (ix2 b d) else Sp (ix3 b ⟨n.val - 1, by omega⟩ d)

/-- The result array: the dense vector, then the 378 inner products of the upper triangle. -/
def G (D : FVec Ideal ⟨2, ![32768, 128]⟩ .f32) (Sp : FVec Ideal ⟨3, ![32768, 26, 128]⟩ .f32) :
    FVec Ideal ⟨2, ![32768, 506]⟩ .f32 := fun j =>
  if h : (j 1).val < 128 then D (ix2 ⟨(j 0).val, idx2_lt0 j⟩ ⟨(j 1).val, h⟩)
  else ∑ d : Fin 128,
    feat D Sp ⟨(j 0).val, idx2_lt0 j⟩ (triRow ⟨(j 1).val - 128, by have := idx2_lt1 j; omega⟩) d
      * feat D Sp ⟨(j 0).val, idx2_lt0 j⟩ (triCol ⟨(j 1).val - 128, by have := idx2_lt1 j; omega⟩) d

end Cert.Spec

end
-- ==== Proof.RefValue.lean ====
/-
  The reference's composed term, read entry by entry, is the specification's function of the two arguments.

  Result entry `(b, q)` with `q < 128` lies in the first piece of the last concatenation: the dense vector's entry
  `q`. Entry `(b, 128 + p)` lies in the second piece: the gather's entry `(b, p)`. The gather reads batch row
  `b`'s Gram matrix at the `p`-th index pair, each component read signed and clamped into `[0, 26]`; the pairs
  are the two literal tables, because the negative-index normalisation selects on an all-false mask and so returns
  each table unchanged. A Gram matrix's entry `(r, c)` is the sum over the 128 coordinates of the products of
  feature vectors `r` and `c`; feature vector `0` is the dense vector (the first piece of the first
  concatenation, a broadcast along a new unit axis), feature vector `n > 0` is sparse vector `n - 1`.
-/
import proofs.«168852_j40389872451968_2_alg».proof.Proof.RefRun
import proofs.«168852_j40389872451968_2_alg».proof.Proof.Spec
import Idealize.ShloMosaic.Lib.Pipeline.Value
import Idealize.ShloMosaic.PureOps.Ideal.Laws
import Idealize.ShloMosaic.Lib.ValueIdx

noncomputable section

namespace Cert.RefSide

open Cert.ReferenceIdeal Cert.ReferenceIdeal.Gen Idealize.ShloMosaic Idealize.ShloMosaic.TcCoe Idealize.SL.Sem Idealize.ShloMosaic.ValueIdx
open scoped BigOperators

/-! ## The index tables -/

/-- The normalisation's mask is all false, so the normalised table is the table. -/
theorem normIdx_apply (tbl : Fin 378 → BitVec 32) (p : Fin 378) :
    normIdx (F := Ideal) tbl (ix1 p) = tbl p := by
  unfold normIdx
  rw [select_apply]
  show Scalar.select 0#1 _ _ = _
  rw [select_zero]
  exact congrArg tbl (Fin.ext (Shape.rowMajor_val_one _))

/-- A table laid out as a column, read at row `p`. -/
theorem column_apply (x : IVec S378 32) (p : Fin 378) :
    broadcastInDim S378x1 ![0] bcast_S378_S378x1_0 x (ix2 p (0 : Fin 1)) = x (ix1 p) := by
  refine broadcastInDim_apply (s := S378) (t := S378x1) _ _ x (ix2 p (0 : Fin 1)) (ix1 p) ?_
  intro a
  match a with
  | ⟨0, _⟩ => rfl

/-- Column 0 of the index pairs is the row table. -/
theorem idxPairs_apply_zero (p : Fin 378) : idxPairs (F := Ideal) (ix2 p (0 : Fin 2)) = lit0 p := by
  unfold idxPairs
  refine (concatenate_pair_apply_left (t := S378x2) (s₁ := S378x1) (s₂ := S378x1) (1 : Fin 2) _ _ _ (ix2 p (0 : Fin 2)) rfl (ix2 p (0 : Fin 1)) ?_).trans ?_
  · intro b
    match b with
    | ⟨0, _⟩ => rfl
    | ⟨1, _⟩ => rfl
  · exact (column_apply _ p).trans (normIdx_apply lit0 p)

/-- Column 1 of the index pairs is the column table. -/
theorem idxPairs_apply_one (p : Fin 378) : idxPairs (F := Ideal) (ix2 p (1 : Fin 2)) = lit1 p := by
  unfold idxPairs
  refine (concatenate_pair_apply_right (t := S378x2) (s₁ := S378x1) (s₂ := S378x1) (1 : Fin 2) _ _ _ (ix2 p (1 : Fin 2)) rfl rfl (ix2 p (0 : Fin 1)) ?_ ?_).trans ?_
  · intro b hb
    match b, hb with
    | ⟨0, _⟩, _ => rfl
    | ⟨1, _⟩, hb => exact absurd rfl hb
  · rfl
  · exact (column_apply _ p).trans (normIdx_apply lit1 p)

/-! ## The gather at an index -/

/-- The gather's dimension numbers. -/
abbrev gd : GatherDims S32768x27x27 S378x2 S32768x378 := gather_S32768x27x27_S378x2_S32768x378_0_12_n_n_12_1_3276811

/-- The gather read at `(b, p)`: the operand at batch row `b` and at the `p`-th index pair, each of its two
    components read signed and clamped into `[0, 26]`. -/
theorem gather_pairs_apply {α : Type} (x : S32768x27x27.Idx → α) (idx : IVec S378x2 32) (b : Fin 32768) (p : Fin 378) :
    Host.gather gd x idx (ix2 b p)
      = x (ix3 b ⟨min (idx (ix2 p (0 : Fin 2))).toInt.toNat 26, by omega⟩
            ⟨min (idx (ix2 p (1 : Fin 2))).toInt.toNat 26, by omega⟩) := by
  unfold Host.gather
  congr 1
  funext a
  refine Fin.ext ?_
  have hs0 : gd.siIdx (ix2 b p) ⟨List.idxOf (1 : Fin 3) gd.startIndexMap,
      List.idxOf_lt_length_iff.2 (by decide)⟩ = ix2 p (0 : Fin 2) := by
    funext c; refine Fin.ext ?_
    match c with
    | ⟨0, _⟩ => rfl
    | ⟨1, _⟩ => rfl
  have hs1 : gd.siIdx (ix2 b p) ⟨List.idxOf (2 : Fin 3) gd.startIndexMap,
      List.idxOf_lt_length_iff.2 (by decide)⟩ = ix2 p (1 : Fin 2) := by
    funext c; refine Fin.ext ?_
    match c with
    | ⟨0, _⟩ => rfl
    | ⟨1, _⟩ => rfl
  match a with
  | ⟨0, _⟩ =>
    show gd.start (ix2 b p) idx 0 + gd.batchCoord (ix2 b p) 0 + gd.offCoord (ix2 b p) 0 = b.val
    rw [GatherDims.batchCoord_eq_zero _ _ _ List.not_mem_nil]
    unfold GatherDims.start
    rw [dif_neg (show (0 : Fin 3) ∉ gd.startIndexMap by decide)]
    unfold GatherDims.offCoord
    rw [dif_pos (show (0 : Fin 3) ∈ gd.sKept by decide)]
    simp only [Nat.add_zero, Nat.zero_add]
    rfl
  | ⟨1, _⟩ =>
    show gd.start (ix2 b p) idx 1 + gd.batchCoord (ix2 b p) 1 + gd.offCoord (ix2 b p) 1 = _
    rw [GatherDims.batchCoord_eq_zero _ _ _ List.not_mem_nil,
      GatherDims.offCoord_eq_zero _ _ _ (show (1 : Fin 3) ∉ gd.sKept by decide)]
    simp only [Nat.add_zero]
    unfold GatherDims.start
    rw [dif_pos (show (1 : Fin 3) ∈ gd.startIndexMap by decide), hs0]
    rfl
  | ⟨2, _⟩ =>
    show gd.start (ix2 b p) idx 2 + gd.batchCoord (ix2 b p) 2 + gd.offCoord (ix2 b p) 2 = _
    rw [GatherDims.batchCoord_eq_zero _ _ _ List.not_mem_nil,
      GatherDims.offCoord_eq_zero _ _ _ (show (2 : Fin 3) ∉ gd.sKept by decide)]
    simp only [Nat.add_zero]
    unfold GatherDims.start
    rw [dif_pos (show (2 : Fin 3) ∈ gd.startIndexMap by decide), hs1]
    rfl

/-! ## The Gram matrix at an index -/

/-- The product's dimension numbers. -/
abbrev dd : DotDims S32768x27x128 S32768x27x128 S32768x27x27 := dot_S32768x27x128_S32768x27x128_S32768x27x27_2_2_1_1_0_0

/-- Entry `(r, c)` of batch row `b`'s Gram matrix is the inner product of feature vectors `r` and `c`. -/
theorem gram_apply (V : FVec Ideal S32768x27x128 .f32) (b : Fin 32768) (r c : Fin 27) :
    gram (F := Ideal) V (ix3 b r c) = ∑ d : Fin 128, V (ix3 b r d) * V (ix3 b c d) := by
  unfold gram
  show FloatOps.dotGeneral dd none _ V V (ix3 b r c) = _
  rw [Ideal.dotGeneral_apply, ← Equiv.sum_comp (contrEquiv1 dd 128 rfl rfl).symm]
  refine Finset.sum_congr rfl fun d _ => ?_
  have c3 := contrEquiv1_symm_val dd 128 rfl rfl d
  have l3 : dd.lhsIdx (ix3 b r c) ((contrEquiv1 dd 128 rfl rfl).symm d) = ix3 b r d := by
    funext ax; apply Fin.ext
    match ax with
    | ⟨0, _⟩ => simp [DotDims.lhsIdx, dd, dot_S32768x27x128_S32768x27x128_S32768x27x27_2_2_1_1_0_0]; rfl
    | ⟨1, _⟩ => simp [DotDims.lhsIdx, dd, dot_S32768x27x128_S32768x27x128_S32768x27x27_2_2_1_1_0_0]; rfl
    | ⟨2, _⟩ => simp [DotDims.lhsIdx, dd, dot_S32768x27x128_S32768x27x128_S32768x27x27_2_2_1_1_0_0]; exact c3
  have r3 : dd.rhsIdx (ix3 b r c) ((contrEquiv1 dd 128 rfl rfl).symm d) = ix3 b c d := by
    funext ax; apply Fin.ext
    match ax with
    | ⟨0, _⟩ => simp [DotDims.rhsIdx, dd, dot_S32768x27x128_S32768x27x128_S32768x27x27_2_2_1_1_0_0]; rfl
    | ⟨1, _⟩ => simp [DotDims.rhsIdx, dd, dot_S32768x27x128_S32768x27x128_S32768x27x27_2_2_1_1_0_0]; rfl
    | ⟨2, _⟩ => simp [DotDims.rhsIdx, dd, dot_S32768x27x128_S32768x27x128_S32768x27x27_2_2_1_1_0_0]; exact c3
  rw [l3, r3]

/-! ## The feature vectors at an index -/

/-- Feature vector `n` of batch row `b`: the dense vector for `n = 0`, sparse vector `n - 1` otherwise. -/
theorem feats_apply (D : FVec Ideal S32768x128 .f32) (Sp : FVec Ideal S32768x26x128 .f32)
    (b : Fin 32768) (n : Fin 27) (d : Fin 128) :
    feats (F := Ideal) D Sp (ix3 b n d) = Cert.Spec.feat D Sp b n d := by
  unfold feats Cert.Spec.feat
  by_cases h : n.val = 0
  · rw [dif_pos h]
    refine (concatenate_pair_apply_left (t := S32768x27x128) (s₁ := S32768x1x128) (s₂ := S32768x26x128) (1 : Fin 3) _ _ _
      (ix3 b n d) rfl (ix3 b (0 : Fin 1) d) ?_).trans ?_
    · intro a
      match a with
      | ⟨0, _⟩ => rfl
      | ⟨1, _⟩ => exact h.symm
      | ⟨2, _⟩ => rfl
    · refine broadcastInDim_apply (s := S32768x128) (t := S32768x1x128) _ _ D (ix3 b (0 : Fin 1) d) (ix2 b d) ?_
      intro a
      match a with
      | ⟨0, _⟩ => rfl
      | ⟨1, _⟩ => rfl
  · rw [dif_neg h]
    refine concatenate_pair_apply_right (t := S32768x27x128) (s₁ := S32768x1x128) (s₂ := S32768x26x128) (1 : Fin 3) _ _ _
      (ix3 b n d) rfl rfl (ix3 b ⟨n.val - 1, by omega⟩ d) ?_ ?_
    · intro a ha
      match a, ha with
      | ⟨0, _⟩, _ => rfl
      | ⟨1, _⟩, ha => exact absurd rfl ha
      | ⟨2, _⟩, _ => rfl
    · show n.val - 1 + 1 = n.val
      omega

/-! ## The gathered entries, and the whole term -/

/-- The gathered entry `(b, p)`: the Gram matrix of batch row `b` at the `p`-th pair of the upper triangle. -/
theorem tri_apply (Gm : FVec Ideal S32768x27x27 .f32) (b : Fin 32768) (p : Fin 378) :
    tri (F := Ideal) Gm (ix2 b p) = Gm (ix3 b (Cert.Spec.triRow p) (Cert.Spec.triCol p)) := by
  unfold tri
  refine (gather_pairs_apply Gm (idxPairs (F := Ideal)) b p).trans (congrArg Gm ?_)
  have hr : (⟨min (idxPairs (F := Ideal) (ix2 p (0 : Fin 2))).toInt.toNat 26, by omega⟩ : Fin 27) = Cert.Spec.triRow p :=
    Fin.ext (by
      show min (idxPairs (F := Ideal) (ix2 p (0 : Fin 2))).toInt.toNat 26 = (Cert.Spec.triRow p).val
      rw [idxPairs_apply_zero]; rfl)
  have hc : (⟨min (idxPairs (F := Ideal) (ix2 p (1 : Fin 2))).toInt.toNat 26, by omega⟩ : Fin 27) = Cert.Spec.triCol p :=
    Fin.ext (by
      show min (idxPairs (F := Ideal) (ix2 p (1 : Fin 2))).toInt.toNat 26 = (Cert.Spec.triCol p).val
      rw [idxPairs_apply_one]; rfl)
  rw [hr, hc]

/-- The reference's composed term is the specification's function of the two arguments, entry by entry. -/
theorem refTerm_eq (D : FVec Ideal S32768x128 .f32) (Sp : FVec Ideal S32768x26x128 .f32) :
    refTerm (F := Ideal) D Sp = Cert.Spec.G D Sp := by
  funext j
  unfold refTerm Cert.Spec.G
  by_cases h : (j 1).val < 128
  · rw [dif_pos h]
    refine concatenate_pair_apply_left (t := S32768x506) (s₁ := S32768x128) (s₂ := S32768x378) (1 : Fin 2) _ _ _ j rfl
      (ix2 ⟨(j 0).val, idx2_lt0 j⟩ ⟨(j 1).val, h⟩) ?_
    intro a
    match a with
    | ⟨0, _⟩ => rfl
    | ⟨1, _⟩ => rfl
  · rw [dif_neg h]
    have hq : (j 1).val - 128 < 378 := by have := idx2_lt1 j; omega
    refine (concatenate_pair_apply_right (t := S32768x506) (s₁ := S32768x128) (s₂ := S32768x378) (1 : Fin 2) _ _ _ j rfl rfl
      (ix2 ⟨(j 0).val, idx2_lt0 j⟩ ⟨(j 1).val - 128, hq⟩) ?_ ?_).trans ?_
    · intro a ha
      match a, ha with
      | ⟨0, _⟩, _ => rfl
      | ⟨1, _⟩, ha => exact absurd rfl ha
    · show (j 1).val - 128 + 128 = (j 1).val
      omega
    · rw [tri_apply, gram_apply]
      refine Finset.sum_congr rfl fun d _ => ?_
      rw [feats_apply, feats_apply]

/-! ## The run, at the specification -/

theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v13) = Cert.Spec.G (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run _ _ _).mono (fun _ h c => ⟨((h c).1).trans (refTerm_eq _ _), (h c).2.1, (h c).2.2⟩) (run_term m' ρ')

end Cert.RefSide

end
-- ==== Proof.KGram.lean ====
/-
  One group of eight batch rows: the Gram matrix of its 216 stacked feature vectors, and the eight 27 × 27
  diagonal blocks cut out of it.

  The group's eight dense vectors `v8` and 8 × 26 sparse vectors `v11` are stacked row after row into a
  216 × 128 matrix (`stacked`): row `27 a + n` is feature vector `n` of the group's row `a` — the dense vector for
  `n = 0`, sparse vector `n - 1` otherwise (`featB`; rounding to a shorter float format is the identity on the
  extended reals). The product of that matrix with its own transpose into a zero accumulator has at `(q, q')` the
  inner product of rows `q` and `q'` (`gram_apply`). Its diagonal block `a` — rows and columns `27 a … 27 a + 26` —
  holds the inner products of the feature vectors of row `a` alone, and the eight blocks stacked are the body's
  8 × 27 × 27 value (`diag8_apply`, `pay2_apply`): the products that mix two different batch rows are never read.
-/
import proofs.«168852_j40389872451968_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KSide

open Idealize.ShloMosaic Idealize.ShloMosaic.ValueIdx Cert.KernelIdeal Cert.KernelIdeal.Gen

/-- Feature vector `n` of the group's row `a`: the dense vector for `n = 0`, sparse vector `n - 1` otherwise. -/
def featB (v8 : FVec Ideal S8x128 .f32) (v11 : FVec Ideal S8x26x128 .f32) (a : Fin 8) (n : Fin 27) (d : Fin 128) : EReal :=
  if h : n.val = 0 then v8 (ix2 a d) else v11 (ix3 a ⟨n.val - 1, by omega⟩ d)

variable {F : FTy → Type} [FloatOps F]

/-- The group's 27 feature vectors per row, stacked into 216 rows of length 128. -/
def stacked (v8 : FVec F S8x128 .f32) (v11 : FVec F S8x26x128 .f32) : FVec F S216x128 .bf16 :=
  shapeCast S216x128
    (concatenate S8x27x128 1 [⟨S8x1x128, shapeCast S8x1x128 (truncf .bf16 v8 bitsLt_bf16_f32) shapeCasts_S8x128_S8x1x128⟩,
      ⟨S8x26x128, truncf .bf16 v11 bitsLt_bf16_f32⟩] concatenates_S8x1x128_S8x26x128_S8x27x128_d1)
    shapeCasts_S8x27x128_S216x128

/-- The product of a 216 × 128 matrix with its own transpose, into a zero accumulator. -/
def gram (x : FVec F S216x128 .bf16) : FVec F S216x216 .f32 :=
  matmul dot_S216x128_S216x128_S216x216_1_1_0_0_n_n none x x (constant S216x216 .f32 0x00000000#32)

/-- The eight 27 × 27 diagonal blocks of a 216 × 216 matrix, stacked. -/
def diag8 (M : FVec F S216x216 .f32) : FVec F S8x27x27 .f32 :=
  concatenate S8x27x27 0
    [⟨S1x27x27, shapeCast S1x27x27 (extractStridedSlice S27x27 ![0, 0] M slices_S216x216_o0_0_S27x27) shapeCasts_S27x27_S1x27x27⟩,
     ⟨S1x27x27, shapeCast S1x27x27 (extractStridedSlice S27x27 ![27, 27] M slices_S216x216_o27_27_S27x27) shapeCasts_S27x27_S1x27x27⟩,
     ⟨S1x27x27, shapeCast S1x27x27 (extractStridedSlice S27x27 ![54, 54] M slices_S216x216_o54_54_S27x27) shapeCasts_S27x27_S1x27x27⟩,
     ⟨S1x27x27, shapeCast S1x27x27 (extractStridedSlice S27x27 ![81, 81] M slices_S216x216_o81_81_S27x27) shapeCasts_S27x27_S1x27x27⟩,
     ⟨S1x27x27, shapeCast S1x27x27 (extractStridedSlice S27x27 ![108, 108] M slices_S216x216_o108_108_S27x27) shapeCasts_S27x27_S1x27x27⟩,
     ⟨S1x27x27, shapeCast S1x27x27 (extractStridedSlice S27x27 ![135, 135] M slices_S216x216_o135_135_S27x27) shapeCasts_S27x27_S1x27x27⟩,
     ⟨S1x27x27, shapeCast S1x27x27 (extractStridedSlice S27x27 ![162, 162] M slices_S216x216_o162_162_S27x27) shapeCasts_S27x27_S1x27x27⟩,
     ⟨S1x27x27, shapeCast S1x27x27 (extractStridedSlice S27x27 ![189, 189] M slices_S216x216_o189_189_S27x27) shapeCasts_S27x27_S1x27x27⟩]
    concatenates_S1x27x27_S1x27x27_S1x27x27_S1x27x27_S1x27x27_S1x27x27_S1x27x27_S1x27x27_S8x27x27_d0

/-- The body's 8 × 27 × 27 value is the diagonal blocks of the Gram matrix of the stacked feature vectors. -/
theorem pay2_eq (v8 : FVec F S8x128 .f32) (v11 : FVec F S8x26x128 .f32) :
    k0_pay2 v8 v11 = diag8 (gram (stacked v8 v11)) := rfl

/-! ## Read at an index, on the extended reals -/

/-- Row `27 a + n` of the stacked matrix is feature vector `n` of row `a`. -/
theorem stacked_apply (v8 : FVec Ideal S8x128 .f32) (v11 : FVec Ideal S8x26x128 .f32) (a : Fin 8) (n : Fin 27) (d : Fin 128)
    (q : Fin 216) (hq : q.val = 27 * a.val + n.val) :
    stacked v8 v11 (ix2 q d) = featB v8 v11 a n d := by
  unfold stacked
  refine (shapeCast_apply _ shapeCasts_S8x27x128_S216x128 (ix2 q d) (ix3 a n d) (by
    rw [Shape.rowMajor_val_three, Shape.rowMajor_val_two]
    show (a.val * 27 + n.val) * 128 + d.val = q.val * 128 + d.val
    rw [hq]; ring)).trans ?_
  unfold featB
  by_cases h : n.val = 0
  · rw [dif_pos h]
    refine (concatenate_pair_apply_left (t := S8x27x128) 1 _ _ concatenates_S8x1x128_S8x26x128_S8x27x128_d1 (ix3 a n d) rfl
      (ix3 a (0 : Fin 1) d) (fun b => by
        match b with
        | ⟨0, _⟩ => rfl
        | ⟨1, _⟩ => exact h.symm
        | ⟨2, _⟩ => rfl)).trans ?_
    refine (shapeCast_apply _ shapeCasts_S8x128_S8x1x128 (ix3 a (0 : Fin 1) d) (ix2 a d) (by
      rw [Shape.rowMajor_val_three, Shape.rowMajor_val_two]
      show a.val * 128 + d.val = (a.val * 1 + 0) * 128 + d.val
      ring)).trans ?_
    rfl
  · rw [dif_neg h]
    refine (concatenate_pair_apply_right (t := S8x27x128) 1 _ _ concatenates_S8x1x128_S8x26x128_S8x27x128_d1 (ix3 a n d) rfl rfl
      (ix3 a (⟨n.val - 1, by omega⟩ : Fin 26) d) (fun b hb => by
        match b, hb with
        | ⟨0, _⟩, _ => rfl
        | ⟨1, _⟩, hb => exact absurd rfl hb
        | ⟨2, _⟩, _ => rfl) (by
        show (n.val - 1) + 1 = n.val
        omega)).trans ?_
    rfl

/-- The Gram matrix at `(q, q')` is the inner product of rows `q` and `q'`. -/
theorem gram_apply (x : FVec Ideal S216x128 .bf16) (q q' : Fin 216) :
    gram x (ix2 q q') = ∑ d : Fin 128, x (ix2 q d) * x (ix2 q' d) := by
  unfold gram
  refine (Ideal.matmul_constant_zero_apply dot_S216x128_S216x128_S216x216_1_1_0_0_n_n none x x (ix2 q q')).trans ?_
  refine (Equiv.sum_comp (contrEquiv1 dot_S216x128_S216x128_S216x216_1_1_0_0_n_n 128 rfl rfl).symm _).symm.trans ?_
  refine Finset.sum_congr rfl fun d _ => ?_
  have hl : dot_S216x128_S216x128_S216x216_1_1_0_0_n_n.lhsIdx (ix2 q q')
      ((contrEquiv1 dot_S216x128_S216x128_S216x216_1_1_0_0_n_n 128 rfl rfl).symm d) = ix2 q d := by
    funext b
    refine Fin.ext ?_
    match b with
    | ⟨0, _⟩ => simp [DotDims.lhsIdx, dot_S216x128_S216x128_S216x216_1_1_0_0_n_n]; rfl
    | ⟨1, _⟩ =>
      exact (DotDims.lhsIdx_val_of_single _ (cl := 1) rfl _ _).trans (contrEquiv1_symm_val _ 128 rfl rfl d)
  have hr : dot_S216x128_S216x128_S216x216_1_1_0_0_n_n.rhsIdx (ix2 q q')
      ((contrEquiv1 dot_S216x128_S216x128_S216x216_1_1_0_0_n_n 128 rfl rfl).symm d) = ix2 q' d := by
    funext b
    refine Fin.ext ?_
    match b with
    | ⟨0, _⟩ => simp [DotDims.rhsIdx, dot_S216x128_S216x128_S216x216_1_1_0_0_n_n]; rfl
    | ⟨1, _⟩ =>
      exact (DotDims.rhsIdx_val_of_single _ (cr := 1) rfl _ _).trans (contrEquiv1_symm_val _ 128 rfl rfl d)
  rw [hl, hr]

/-- Block `a` of the stacked diagonal blocks, at `(r, c)`, is the matrix at `(27 a + r, 27 a + c)`. -/
theorem diag8_apply {α : Type} (M : S216x216.Idx → α) (a : Fin 8) (r c : Fin 27) :
    concatenate S8x27x27 0
    [⟨S1x27x27, shapeCast S1x27x27 (extractStridedSlice S27x27 ![0, 0] M slices_S216x216_o0_0_S27x27) shapeCasts_S27x27_S1x27x27⟩,
     ⟨S1x27x27, shapeCast S1x27x27 (extractStridedSlice S27x27 ![27, 27] M slices_S216x216_o27_27_S27x27) shapeCasts_S27x27_S1x27x27⟩,
     ⟨S1x27x27, shapeCast S1x27x27 (extractStridedSlice S27x27 ![54, 54] M slices_S216x216_o54_54_S27x27) shapeCasts_S27x27_S1x27x27⟩,
     ⟨S1x27x27, shapeCast S1x27x27 (extractStridedSlice S27x27 ![81, 81] M slices_S216x216_o81_81_S27x27) shapeCasts_S27x27_S1x27x27⟩,
     ⟨S1x27x27, shapeCast S1x27x27 (extractStridedSlice S27x27 ![108, 108] M slices_S216x216_o108_108_S27x27) shapeCasts_S27x27_S1x27x27⟩,
     ⟨S1x27x27, shapeCast S1x27x27 (extractStridedSlice S27x27 ![135, 135] M slices_S216x216_o135_135_S27x27) shapeCasts_S27x27_S1x27x27⟩,
     ⟨S1x27x27, shapeCast S1x27x27 (extractStridedSlice S27x27 ![162, 162] M slices_S216x216_o162_162_S27x27) shapeCasts_S27x27_S1x27x27⟩,
     ⟨S1x27x27, shapeCast S1x27x27 (extractStridedSlice S27x27 ![189, 189] M slices_S216x216_o189_189_S27x27) shapeCasts_S27x27_S1x27x27⟩]
    concatenates_S1x27x27_S1x27x27_S1x27x27_S1x27x27_S1x27x27_S1x27x27_S1x27x27_S1x27x27_S8x27x27_d0 (ix3 a r c)
      = M (ix2 ⟨27 * a.val + r.val, by omega⟩ ⟨27 * a.val + c.val, by omega⟩) := by
  have piece : ∀ (o : Nat) (ho : o + 27 ≤ 216) (hs : S216x216.Slices ![o, o] S27x27),
      shapeCast S1x27x27 (extractStridedSlice S27x27 ![o, o] M hs) shapeCasts_S27x27_S1x27x27 (ix3 (0 : Fin 1) r c)
        = M (ix2 ⟨o + r.val, by omega⟩ ⟨o + c.val, by omega⟩) := fun o ho hs =>
    (shapeCast_ab_1ab_apply _ shapeCasts_S27x27_S1x27x27 0 r c).trans
      (extractStridedSlice_apply ![o, o] M hs (ix2 r c) _ (fun b => by
        match b with
        | ⟨0, _⟩ => rfl
        | ⟨1, _⟩ => rfl))
  have hi : ∀ b : Fin 3, b.cast (rfl : S1x27x27.rank = S8x27x27.rank) ≠ (0 : Fin 3) →
      ((ix3 (0 : Fin 1) r c : S1x27x27.Idx) b).val = ((ix3 a r c : S8x27x27.Idx) (b.cast rfl)).val := fun b hb => by
    match b, hb with
    | ⟨0, _⟩, hb => exact absurd rfl hb
    | ⟨1, _⟩, _ => rfl
    | ⟨2, _⟩, _ => rfl
  match a with
  | ⟨0, _⟩ => exact (concatenate_apply_piece (t := S8x27x27) 0 _ _ (ix3 _ r c) 0 (by show (0 : Nat) < 8; omega) S1x27x27 _ rfl rfl 0 rfl (ix3 0 r c) hi rfl).trans ((piece 0 (by omega) _).trans (by simp))
  | ⟨1, _⟩ => exact (concatenate_apply_piece (t := S8x27x27) 0 _ _ (ix3 _ r c) 1 (by show (1 : Nat) < 8; omega) S1x27x27 _ rfl rfl 1 rfl (ix3 0 r c) hi rfl).trans (piece 27 (by omega) _)
  | ⟨2, _⟩ => exact (concatenate_apply_piece (t := S8x27x27) 0 _ _ (ix3 _ r c) 2 (by show (2 : Nat) < 8; omega) S1x27x27 _ rfl rfl 2 rfl (ix3 0 r c) hi rfl).trans (piece 54 (by omega) _)
  | ⟨3, _⟩ => exact (concatenate_apply_piece (t := S8x27x27) 0 _ _ (ix3 _ r c) 3 (by show (3 : Nat) < 8; omega) S1x27x27 _ rfl rfl 3 rfl (ix3 0 r c) hi rfl).trans (piece 81 (by omega) _)
  | ⟨4, _⟩ => exact (concatenate_apply_piece (t := S8x27x27) 0 _ _ (ix3 _ r c) 4 (by show (4 : Nat) < 8; omega) S1x27x27 _ rfl rfl 4 rfl (ix3 0 r c) hi rfl).trans (piece 108 (by omega) _)
  | ⟨5, _⟩ => exact (concatenate_apply_piece (t := S8x27x27) 0 _ _ (ix3 _ r c) 5 (by show (5 : Nat) < 8; omega) S1x27x27 _ rfl rfl 5 rfl (ix3 0 r c) hi rfl).trans (piece 135 (by omega) _)
  | ⟨6, _⟩ => exact (concatenate_apply_piece (t := S8x27x27) 0 _ _ (ix3 _ r c) 6 (by show (6 : Nat) < 8; omega) S1x27x27 _ rfl rfl 6 rfl (ix3 0 r c) hi rfl).trans (piece 162 (by omega) _)
  | ⟨7, _⟩ => exact (concatenate_apply_piece (t := S8x27x27) 0 _ _ (ix3 _ r c) 7 (by show (7 : Nat) < 8; omega) S1x27x27 _ rfl rfl 7 rfl (ix3 0 r c) hi rfl).trans (piece 189 (by omega) _)

/-- The body's 8 × 27 × 27 value at `(a, r, c)` is the inner product of feature vectors `r` and `c` of row `a`. -/
theorem pay2_apply (v8 : FVec Ideal S8x128 .f32) (v11 : FVec Ideal S8x26x128 .f32) (a : Fin 8) (r c : Fin 27) :
    k0_pay2 (F := Ideal) v8 v11 (ix3 a r c) = ∑ d : Fin 128, featB v8 v11 a r d * featB v8 v11 a c d := by
  rw [pay2_eq]
  unfold diag8
  refine (diag8_apply _ a r c).trans ?_
  refine (gram_apply _ _ _).trans ?_
  refine Finset.sum_congr rfl fun d _ => ?_
  rw [stacked_apply v8 v11 a r d _ rfl, stacked_apply v8 v11 a c d _ rfl]

end Cert.KSide

end
-- ==== Proof.KTriu.lean ====
/-
  The upper triangle of each 27 × 27 block, laid out row by row.

  From an 8 × 27 × 27 value `T` the body takes, for each `r = 0 … 26`, the part of row `r` from the diagonal on —
  `T (a, r, r), …, T (a, r, 26)`, `27 - r` entries for each `a` — and lays the 27 parts side by side into an 8 × 378
  value (`triu`). Part `r` therefore starts at column `27 + 26 + … + (28 - r) = r (55 - r) / 2`, and column `p` of the
  result holds `T (a, r, c)` for the `p`-th pair `r ≤ c` of the triangle in row-major order (`triu_apply`): the pair the
  specification calls `(triRow p, triCol p)`.
-/
import proofs.«168852_j40389872451968_2_alg».proof.Proof.Gen.KernelIdeal.Skeleton
import proofs.«168852_j40389872451968_2_alg».proof.Proof.Spec
import Idealize.ShloMosaic.Lib.ValueIdx
import Idealize.ShloMosaic.Lib.Pipeline.Value

noncomputable section

namespace Cert.KSide

open Idealize.ShloMosaic Idealize.ShloMosaic.ValueIdx Cert.KernelIdeal Cert.KernelIdeal.Gen Cert.Spec

variable {α : Type}

/-- The 27 row parts, each with its shape: part `r` is row `r` of every block from column `r` on. -/
def triuParts (T : S8x27x27.Idx → α) : List ((s : Shape) × (s.Idx → α)) :=
  [⟨S8x27, shapeCast S8x27 (extractStridedSlice S8x1x27 ![0, 0, 0] T slices_S8x27x27_o0_0_0_S8x1x27) shapeCasts_S8x1x27_S8x27⟩,
   ⟨S8x26, shapeCast S8x26 (extractStridedSlice S8x1x26 ![0, 1, 1] T slices_S8x27x27_o0_1_1_S8x1x26) shapeCasts_S8x1x26_S8x26⟩,
   ⟨S8x25, shapeCast S8x25 (extractStridedSlice S8x1x25 ![0, 2, 2] T slices_S8x27x27_o0_2_2_S8x1x25) shapeCasts_S8x1x25_S8x25⟩,
   ⟨S8x24, shapeCast S8x24 (extractStridedSlice S8x1x24 ![0, 3, 3] T slices_S8x27x27_o0_3_3_S8x1x24) shapeCasts_S8x1x24_S8x24⟩,
   ⟨S8x23, shapeCast S8x23 (extractStridedSlice S8x1x23 ![0, 4, 4] T slices_S8x27x27_o0_4_4_S8x1x23) shapeCasts_S8x1x23_S8x23⟩,
   ⟨S8x22, shapeCast S8x22 (extractStridedSlice S8x1x22 ![0, 5, 5] T slices_S8x27x27_o0_5_5_S8x1x22) shapeCasts_S8x1x22_S8x22⟩,
   ⟨S8x21, shapeCast S8x21 (extractStridedSlice S8x1x21 ![0, 6, 6] T slices_S8x27x27_o0_6_6_S8x1x21) shapeCasts_S8x1x21_S8x21⟩,
   ⟨S8x20, shapeCast S8x20 (extractStridedSlice S8x1x20 ![0, 7, 7] T slices_S8x27x27_o0_7_7_S8x1x20) shapeCasts_S8x1x20_S8x20⟩,
   ⟨S8x19, shapeCast S8x19 (extractStridedSlice S8x1x19 ![0, 8, 8] T slices_S8x27x27_o0_8_8_S8x1x19) shapeCasts_S8x1x19_S8x19⟩,
   ⟨S8x18, shapeCast S8x18 (extractStridedSlice S8x1x18 ![0, 9, 9] T slices_S8x27x27_o0_9_9_S8x1x18) shapeCasts_S8x1x18_S8x18⟩,
   ⟨S8x17, shapeCast S8x17 (extractStridedSlice S8x1x17 ![0, 10, 10] T slices_S8x27x27_o0_10_10_S8x1x17) shapeCasts_S8x1x17_S8x17⟩,
   ⟨S8x16, shapeCast S8x16 (extractStridedSlice S8x1x16 ![0, 11, 11] T slices_S8x27x27_o0_11_11_S8x1x16) shapeCasts_S8x1x16_S8x16⟩,
   ⟨S8x15, shapeCast S8x15 (extractStridedSlice S8x1x15 ![0, 12, 12] T slices_S8x27x27_o0_12_12_S8x1x15) shapeCasts_S8x1x15_S8x15⟩,
   ⟨S8x14, shapeCast S8x14 (extractStridedSlice S8x1x14 ![0, 13, 13] T slices_S8x27x27_o0_13_13_S8x1x14) shapeCasts_S8x1x14_S8x14⟩,
   ⟨S8x13, shapeCast S8x13 (extractStridedSlice S8x1x13 ![0, 14, 14] T slices_S8x27x27_o0_14_14_S8x1x13) shapeCasts_S8x1x13_S8x13⟩,
   ⟨S8x12, shapeCast S8x12 (extractStridedSlice S8x1x12 ![0, 15, 15] T slices_S8x27x27_o0_15_15_S8x1x12) shapeCasts_S8x1x12_S8x12⟩,
   ⟨S8x11, shapeCast S8x11 (extractStridedSlice S8x1x11 ![0, 16, 16] T slices_S8x27x27_o0_16_16_S8x1x11) shapeCasts_S8x1x11_S8x11⟩,
   ⟨S8x10, shapeCast S8x10 (extractStridedSlice S8x1x10 ![0, 17, 17] T slices_S8x27x27_o0_17_17_S8x1x10) shapeCasts_S8x1x10_S8x10⟩,
   ⟨S8x9, shapeCast S8x9 (extractStridedSlice S8x1x9 ![0, 18, 18] T slices_S8x27x27_o0_18_18_S8x1x9) shapeCasts_S8x1x9_S8x9⟩,
   ⟨S8x8, shapeCast S8x8 (extractStridedSlice S8x1x8 ![0, 19, 19] T slices_S8x27x27_o0_19_19_S8x1x8) shapeCasts_S8x1x8_S8x8⟩,
   ⟨S8x7, shapeCast S8x7 (extractStridedSlice S8x1x7 ![0, 20, 20] T slices_S8x27x27_o0_20_20_S8x1x7) shapeCasts_S8x1x7_S8x7⟩,
   ⟨S8x6, shapeCast S8x6 (extractStridedSlice S8x1x6 ![0, 21, 21] T slices_S8x27x27_o0_21_21_S8x1x6) shapeCasts_S8x1x6_S8x6⟩,
   ⟨S8x5, shapeCast S8x5 (extractStridedSlice S8x1x5 ![0, 22, 22] T slices_S8x27x27_o0_22_22_S8x1x5) shapeCasts_S8x1x5_S8x5⟩,
   ⟨S8x4, shapeCast S8x4 (extractStridedSlice S8x1x4 ![0, 23, 23] T slices_S8x27x27_o0_23_23_S8x1x4) shapeCasts_S8x1x4_S8x4⟩,
   ⟨S8x3, shapeCast S8x3 (extractStridedSlice S8x1x3 ![0, 24, 24] T slices_S8x27x27_o0_24_24_S8x1x3) shapeCasts_S8x1x3_S8x3⟩,
   ⟨S8x2, shapeCast S8x2 (extractStridedSlice S8x1x2 ![0, 25, 25] T slices_S8x27x27_o0_25_25_S8x1x2) shapeCasts_S8x1x2_S8x2⟩,
   ⟨S8x1, shapeCast S8x1 (extractStridedSlice S8x1x1 ![0, 26, 26] T slices_S8x27x27_o0_26_26_S8x1x1) shapeCasts_S8x1x1_S8x1⟩]

/-- The row parts side by side: the upper triangle of each block, row by row. -/
def triu (T : S8x27x27.Idx → α) : S8x378.Idx → α :=
  concatenate S8x378 1 (triuParts T) concatenates_S8x27_S8x26_S8x25_S8x24_S8x23_S8x22_S8x21_S8x20_S8x19_S8x18_S8x17_S8x16_S8x15_S8x14_S8x13_S8x12_S8x11_S8x10_S8x9_S8x8_S8x7_S8x6_S8x5_S8x4_S8x3_S8x2_S8x1_S8x378_d1

/-- What the body stores for a group is the upper triangles of its 8 × 27 × 27 value. -/
theorem pay1_eq {F : FTy → Type} [FloatOps F] (v8 : FVec F S8x128 .f32) (v11 : FVec F S8x26x128 .f32) :
    k0_pay1 (k0_pay2 v8 v11) (k0_pay3 v8 v11) (k0_pay4 v8 v11) (k0_pay5 v8 v11) (k0_pay6 v8 v11) (k0_pay7 v8 v11) (k0_pay8 v8 v11) (k0_pay9 v8 v11) (k0_pay10 v8 v11) (k0_pay11 v8 v11) (k0_pay12 v8 v11) (k0_pay13 v8 v11) = triu (k0_pay2 v8 v11) := rfl

/-- One row part read at `(a, c')`: entry `(a, r, r + c')` of the value. -/
theorem row_part (T : S8x27x27.Idx → α) (r w : Nat) (hw : r + w = 27)
    (hs : S8x27x27.Slices ![0, r, r] ⟨3, ![8, 1, w]⟩) (hc : (⟨3, ![8, 1, w]⟩ : Shape).ShapeCasts ⟨2, ![8, w]⟩)
    (a : Fin 8) (c' : Fin w) :
    shapeCast ⟨2, ![8, w]⟩ (extractStridedSlice ⟨3, ![8, 1, w]⟩ ![0, r, r] T hs) hc (ix2 a c')
      = T (ix3 a ⟨r, by have := c'.isLt; omega⟩ ⟨r + c'.val, by have := c'.isLt; omega⟩) :=
  (shapeCast_apply _ hc (ix2 a c') (ix3 a (0 : Fin 1) c') (by
      rw [Shape.rowMajor_val_three, Shape.rowMajor_val_two]
      show (a.val * 1 + 0) * w + c'.val = a.val * w + c'.val
      ring)).trans
    (extractStridedSlice_apply ![0, r, r] T hs (ix3 a (0 : Fin 1) c') _ (fun b => by
      match b with
      | ⟨0, _⟩ => exact (Nat.zero_add _).symm
      | ⟨1, _⟩ => rfl
      | ⟨2, _⟩ => rfl))

theorem triuParts_length (T : S8x27x27.Idx → α) : (triuParts T).length = 27 := rfl

/-- The shapes of the 27 row parts: 8 × 27, 8 × 26, …, 8 × 1. -/
def triuShapes : List Shape := (List.range 27).map fun r => ⟨2, ![8, 27 - r]⟩

/-- The widths of the parts before part `k` add up to `triStart k`. -/
theorem triuShapes_prefix : ∀ k : Fin 27,
    (((triuShapes.take k.val)).map fun s => if h : s.rank = S8x378.rank then s.size ((1 : Fin S8x378.rank).cast h.symm) else 0).sum = triStart k.val := by
  decide +kernel

theorem triuParts_prefix (T : S8x27x27.Idx → α) (k : Fin 27) :
    ((((triuParts T).take k.val).map (·.1)).map fun s => if h : s.rank = S8x378.rank then s.size ((1 : Fin S8x378.rank).cast h.symm) else 0).sum = triStart k.val := by
  rw [List.map_take]
  exact triuShapes_prefix k

/-- Part `k` of the list: its width `27 - k` and what it holds. -/
theorem triuParts_row (T : S8x27x27.Idx → α) : ∀ k : Fin 27, ∃ (w : Nat) (x₁ : (⟨2, ![8, w]⟩ : Shape).Idx → α),
    (triuParts T)[k.val]'(by rw [triuParts_length]; exact k.isLt) = ⟨⟨2, ![8, w]⟩, x₁⟩
    ∧ ∃ hw : k.val + w = 27, ∀ (a : Fin 8) (c' : Fin w), x₁ (ix2 a c') = T (ix3 a k ⟨k.val + c'.val, by omega⟩) := by
  intro k
  fin_cases k <;> exact ⟨_, _, rfl, rfl, fun a c' => row_part T _ _ rfl _ _ a c'⟩

/-- Column `p` of the laid-out triangles holds the block entry at the `p`-th upper-triangular pair. -/
theorem triu_apply (T : S8x27x27.Idx → α) (a : Fin 8) (p : Fin 378) :
    triu T (ix2 a p) = T (ix3 a (triRow p) (triCol p)) := by
  obtain ⟨hle, hp⟩ := tri_spec p
  obtain ⟨w, x₁, hxk, hw, hx⟩ := triuParts_row T (triRow p)
  have hpre := triuParts_prefix T (triRow p)
  have hc : (triCol p).val - (triRow p).val < w := by have := (triCol p).isLt; omega
  unfold triu
  refine (concatenate_apply_piece (t := S8x378) 1 (triuParts T) _ (ix2 a p) (triRow p).val _ ⟨2, ![8, w]⟩ x₁ hxk rfl
    (triStart (triRow p).val) hpre (ix2 a ⟨_, hc⟩) ?_ ?_).trans ?_
  · intro b hb
    match b, hb with
    | ⟨0, _⟩, _ => rfl
    | ⟨1, _⟩, hb => exact absurd rfl hb
  · exact hp.symm
  · refine (hx a ⟨_, hc⟩).trans (congrArg T ?_)
    funext b
    match b with
    | ⟨0, _⟩ => rfl
    | ⟨1, _⟩ => rfl
    | ⟨2, _⟩ => exact Fin.ext (by show (triRow p).val + ((triCol p).val - (triRow p).val) = (triCol p).val; omega)

end Cert.KSide

end
-- ==== Proof.KBlockDef.lean ====
/-
  What the body leaves in one 512 × 506 output block, as one function of its two input blocks.

  Row `b` of the block has the block's dense vector `b` in its first 128 columns, and in column `128 + p` the
  inner product of feature vectors `triRow p` and `triCol p` of row `b` — the same function as the specification's
  `G`, on a block of 512 batch rows instead of the whole batch.
-/
import proofs.«168852_j40389872451968_2_alg».proof.KernelIdeal
import proofs.«168852_j40389872451968_2_alg».proof.Proof.Spec
import Idealize.ShloMosaic.PureOps.Ideal
import Idealize.ShloMosaic.Lib.ValueIdx

noncomputable section

namespace Cert.KSide

open Idealize.ShloMosaic Idealize.ShloMosaic.ValueIdx Cert.KernelIdeal Cert.Spec

/-- Feature vector `n` of row `b` of a block: its dense vector for `n = 0`, sparse vector `n - 1` otherwise. -/
def featBlk (x0 : FVec Ideal S512x128 .f32) (x1 : FVec Ideal S512x26x128 .f32) (b : Fin 512) (n : Fin 27) (d : Fin 128) : EReal :=
  if h : n.val = 0 then x0 (ix2 b d) else x1 (ix3 b ⟨n.val - 1, by omega⟩ d)

/-- The output block: the dense vectors, then the 378 inner products of each row's upper triangle. -/
def Gblk (x0 : FVec Ideal S512x128 .f32) (x1 : FVec Ideal S512x26x128 .f32) : FVec Ideal S512x506 .f32 := fun y =>
  if h : (y 1).val < 128 then x0 (ix2 ⟨(y 0).val, idx2_lt0 y⟩ ⟨(y 1).val, h⟩)
  else ∑ d : Fin 128,
    featBlk x0 x1 ⟨(y 0).val, idx2_lt0 y⟩ (triRow ⟨(y 1).val - 128, by have := idx2_lt1 y; omega⟩) d
      * featBlk x0 x1 ⟨(y 0).val, idx2_lt0 y⟩ (triCol ⟨(y 1).val - 128, by have := idx2_lt1 y; omega⟩) d

end Cert.KSide

end
-- ==== Proof.KBlock.lean ====
/-
  The body fills its 512 × 506 output block with `Gblk` of its two input blocks.

  The body first copies the block's 512 dense vectors into columns 0 … 127. Then, for each group `k = 0 … 63` of eight
  rows, it loads rows `8 k … 8 k + 7` of both input blocks, forms the group's 8 × 27 × 27 inner products
  (`pay2_apply`), lays their upper triangles out row by row (`triu_apply`) and stores the 8 × 378 result at rows
  `8 k … 8 k + 7`, columns 128 … 505. So every store's value, at its own index `x`, is `Gblk` at the place of the block
  that `x` names (`trip_pieces` for a group's store, by induction over the groups `loop_pieces`; `run_pieces` adds the
  first store), and since the 65 stores cover the block, what the block holds in the end is `Gblk` (`block_eq`).
-/
import proofs.«168852_j40389872451968_2_alg».proof.Proof.Gen.KernelIdeal.Frame
import proofs.«168852_j40389872451968_2_alg».proof.Proof.KGram
import proofs.«168852_j40389872451968_2_alg».proof.Proof.KTriu
import proofs.«168852_j40389872451968_2_alg».proof.Proof.KBlockDef
import Idealize.ShloMosaic.Lib.Pipeline.Value
import Idealize.ShloMosaic.Lib.Pipeline.FrameBody

noncomputable section

namespace Cert.KSide

open Idealize.ShloMosaic Idealize.ShloMosaic.ValueIdx Idealize.ShloMosaic.TcCoe Idealize.ShloMosaic.Tactic Idealize.SL.Sem
open Cert.KernelIdeal Cert.KernelIdeal.Gen Cert.Spec

/-! ## The block function at its two kinds of column -/

theorem Gblk_dense (x0 : FVec Ideal S512x128 .f32) (x1 : FVec Ideal S512x26x128 .f32) (b : Fin 512) (j : Fin 128) :
    Gblk x0 x1 (ix2 b ⟨j.val, by omega⟩) = x0 (ix2 b j) := by
  unfold Gblk
  rw [dif_pos (show ((ix2 b (⟨j.val, by omega⟩ : Fin 506) : S512x506.Idx) 1).val < 128 from j.isLt)]

theorem Gblk_tri (x0 : FVec Ideal S512x128 .f32) (x1 : FVec Ideal S512x26x128 .f32) (b : Fin 512) (p : Fin 378) :
    Gblk x0 x1 (ix2 b ⟨128 + p.val, by omega⟩)
      = ∑ d : Fin 128, featBlk x0 x1 b (triRow p) d * featBlk x0 x1 b (triCol p) d := by
  unfold Gblk
  rw [dif_neg (show ¬ ((ix2 b (⟨128 + p.val, by omega⟩ : Fin 506) : S512x506.Idx) 1).val < 128 from by
    show ¬ (128 + p.val < 128); omega)]
  have hp : ∀ h : 128 + p.val - 128 < 378, (⟨128 + p.val - 128, h⟩ : Fin 378) = p := fun h => Fin.ext (by show 128 + p.val - 128 = p.val; omega)
  show (∑ d : Fin 128, featBlk x0 x1 b (triRow ⟨128 + p.val - 128, _⟩) d * featBlk x0 x1 b (triCol ⟨128 + p.val - 128, _⟩) d) = _
  rw [hp]

/-! ## One group of eight rows -/

section Group

variable (arg1 : Memref sig .tc .vmem S512x128 .f32) (harg1 : arg1.IsWhole)
  (arg2 : Memref sig .tc .vmem S512x26x128 .f32) (harg2 : arg2.IsWhole)
  (x0 : Vec Ideal S512x128 .f32) (x1 : Vec Ideal S512x26x128 .f32) (k : Fin k0_t1_loop.trips)

theorem trips_lt : k.val < 64 := Nat.lt_of_lt_of_le k.isLt k0_t1_abs.2.1

/-- The eight dense vectors group `k` loads. -/
abbrev loadD : Vec Ideal S8x128 .f32 :=
  View.readAt (Elt Ideal) arg1.view (Rect.unit (s := S512x128) (k0_off1 k) S8x128.size (k0_off1_inb k)).toLoadRect (harg1.unread x0)

/-- The 8 × 26 sparse vectors group `k` loads. -/
abbrev loadS : Vec Ideal S8x26x128 .f32 :=
  View.readAt (Elt Ideal) arg2.view (Rect.unit (s := S512x26x128) (k0_off2 k) S8x26x128.size (k0_off2_inb k)).toLoadRect (harg2.unread x1)

local notation "V8" => loadD arg1 harg1 x0 k
local notation "V11" => loadS arg2 harg2 x1 k

/-- The group's loaded dense vectors are rows `8 k … 8 k + 7` of the dense block. -/
theorem load_dense (a : Fin 8) (d : Fin 128) :
    V8 (ix2 a d) = x0 (ix2 ⟨8 * k.val + a.val, by have := trips_lt k; omega⟩ d) := by
  show arg1.view.read (Elt Ideal) (harg1.unread x0) ((Rect.unit (s := S512x128) (k0_off1 k) S8x128.size (k0_off1_inb k)).idx (ix2 a d)) = _
  rw [harg1.read_unread]
  refine congrArg x0 (funext fun b => Fin.ext ?_)
  have e := k0_off1_eq k
  match b with
  | ⟨0, _⟩ => show k0_off1 k 0 + 1 * a.val = 8 * k.val + a.val; rw [e]; show 8 * k.val + 1 * a.val = _; omega
  | ⟨1, _⟩ => show k0_off1 k 1 + 1 * d.val = d.val; rw [e]; show 0 + 1 * d.val = _; omega

/-- The group's loaded sparse vectors are rows `8 k … 8 k + 7` of the sparse block. -/
theorem load_sparse (a : Fin 8) (n : Fin 26) (d : Fin 128) :
    V11 (ix3 a n d) = x1 (ix3 ⟨8 * k.val + a.val, by have := trips_lt k; omega⟩ n d) := by
  show arg2.view.read (Elt Ideal) (harg2.unread x1) ((Rect.unit (s := S512x26x128) (k0_off2 k) S8x26x128.size (k0_off2_inb k)).idx (ix3 a n d)) = _
  rw [harg2.read_unread]
  refine congrArg x1 (funext fun b => Fin.ext ?_)
  have e := k0_off2_eq k
  match b with
  | ⟨0, _⟩ => show k0_off2 k 0 + 1 * a.val = 8 * k.val + a.val; rw [e]; show 8 * k.val + 1 * a.val = _; omega
  | ⟨1, _⟩ => show k0_off2 k 1 + 1 * n.val = n.val; rw [e]; show 0 + 1 * n.val = _; omega
  | ⟨2, _⟩ => show k0_off2 k 2 + 1 * d.val = d.val; rw [e]; show 0 + 1 * d.val = _; omega

/-- So the group's feature vectors are the block's, eight rows at a time. -/
theorem featB_loaded (a : Fin 8) (n : Fin 27) (d : Fin 128) :
    featB V8 V11 a n d = featBlk x0 x1 ⟨8 * k.val + a.val, by have := trips_lt k; omega⟩ n d := by
  unfold featB featBlk
  by_cases h : n.val = 0
  · rw [dif_pos h, dif_pos h]; exact load_dense arg1 harg1 x0 k a d
  · rw [dif_neg h, dif_neg h]; exact load_sparse arg2 harg2 x1 k a _ d

/-- What the group stores, at `(a, p)`: the block function at row `8 k + a`, column `128 + p`. -/
theorem trip_val (a : Fin 8) (p : Fin 378) :
    k0_pay1 (k0_pay2 V8 V11) (k0_pay3 V8 V11) (k0_pay4 V8 V11) (k0_pay5 V8 V11) (k0_pay6 V8 V11) (k0_pay7 V8 V11) (k0_pay8 V8 V11) (k0_pay9 V8 V11) (k0_pay10 V8 V11) (k0_pay11 V8 V11) (k0_pay12 V8 V11) (k0_pay13 V8 V11) (ix2 a p)
      = Gblk x0 x1 (ix2 ⟨8 * k.val + a.val, by have := trips_lt k; omega⟩ ⟨128 + p.val, by omega⟩) := by
  rw [pay1_eq, triu_apply, pay2_apply, Gblk_tri]
  exact Finset.sum_congr rfl fun d _ => by rw [featB_loaded, featB_loaded]

end Group

/-! ## The stores, one by one -/

section Pieces

variable (𝒱 : Variants) (c : Dev nD) (bd : Option 𝒱.V) (i : grid0.Coords)
  (arg1 : Memref sig .tc .vmem S512x128 .f32) (harg1 : arg1.IsWhole)
  (arg2 : Memref sig .tc .vmem S512x26x128 .f32) (harg2 : arg2.IsWhole)
  (arg3 : Memref sig .tc .vmem S512x506 .f32) (harg3 : arg3.IsWhole)
  (x0 : Vec Ideal S512x128 .f32) (x1 : Vec Ideal S512x26x128 .f32)

/-- A group's one store holds the block function on its rectangle. -/
theorem trip_pieces (k : Fin k0_t1_loop.trips) :
    ∀ p ∈ tripL_k0_t1 (F := Ideal) 𝒱 c bd i arg1 harg1 arg2 harg2 arg3 harg3 (harg1.unread x0) (harg2.unread x1) k,
      ∀ x : p.1.shape.Idx, p.2 x = Gblk x0 x1 (p.1.emb x) := by
  unfold tripL_k0_t1 trip_k0_t1
  dsimp only
  sl_unfold_run_names
  intro p hp
  rw [List.mem_singleton] at hp
  subst hp
  intro x
  obtain ⟨a, q, rfl⟩ : ∃ (a : Fin 8) (q : Fin 378), x = ix2 a q := ⟨x 0, x 1, eq_ix2 x⟩
  refine (trip_val arg1 harg1 arg2 harg2 x0 x1 k a q).trans (congrArg (Gblk x0 x1) (funext fun b => Fin.ext ?_))
  have e := k0_off3_eq k
  match b with
  | ⟨0, _⟩ => show 8 * k.val + a.val = k0_off3 k 0 + 1 * a.val; rw [e]; show _ = 8 * k.val + 1 * a.val; omega
  | ⟨1, _⟩ => show 128 + q.val = k0_off3 k 1 + 1 * q.val; rw [e]; show _ = 128 + 1 * q.val; omega

/-- The stores of the groups before group `K` all hold the block function on their rectangles. -/
theorem loop_pieces : ∀ K : Nat, K ≤ k0_t1_loop.trips →
    ∀ p ∈ pb_k0_t1 (F := Ideal) 𝒱 c bd i arg1 harg1 arg2 harg2 arg3 harg3 (harg1.unread x0) (harg2.unread x1) K,
      ∀ x : p.1.shape.Idx, p.2 x = Gblk x0 x1 (p.1.emb x)
  | 0, _ => by
    intro p hp
    rw [pb_k0_t1.eq_1] at hp
    exact absurd hp List.not_mem_nil
  | K + 1, hK => by
    intro p hp
    rw [pb_k0_t1_succ 𝒱 c bd i arg1 harg1 arg2 harg2 arg3 harg3 (harg1.unread x0) (harg2.unread x1) ⟨K, hK⟩, List.mem_append] at hp
    rcases hp with hp | hp
    · exact trip_pieces 𝒱 c bd i arg1 harg1 arg2 harg2 arg3 harg3 x0 x1 ⟨K, hK⟩ p hp
    · exact loop_pieces K (Nat.le_of_succ_le hK) p hp

end Pieces

/-- Every store of the body's run holds the block function on its rectangle. -/
theorem run_pieces (c : Dev nD) (i : grid0.Coords)
    (arg1 : Memref sig .tc .vmem S512x128 .f32) (harg1 : arg1.IsWhole)
    (arg2 : Memref sig .tc .vmem S512x26x128 .f32) (harg2 : arg2.IsWhole)
    (arg3 : Memref sig .tc .vmem S512x506 .f32) (harg3 : arg3.IsWhole)
    (x0 : Vec Ideal S512x128 .f32) (x1 : Vec Ideal S512x26x128 .f32) :
    ∀ p ∈ (kernelRun0_A (F := Ideal) c i arg1 harg1 arg2 harg2 arg3 harg3 x0 x1).1,
      ∀ x : p.1.shape.Idx, p.2 x = Gblk x0 x1 (p.1.emb x) := by
  unfold kernelRun0_A
  dsimp only
  intro p hp
  rw [List.mem_append] at hp
  rcases hp with hp | hp
  · exact loop_pieces Variants.none c none i arg1 harg1 arg2 harg2 arg3 harg3 x0 x1 _ (le_refl _) p hp
  · rw [List.mem_singleton] at hp
    subst hp
    intro x
    obtain ⟨b, j, rfl⟩ : ∃ (b : Fin 512) (j : Fin 128), x = ix2 b j := ⟨x 0, x 1, eq_ix2 x⟩
    show arg1.view.read (Elt Ideal) (harg1.unread x0) ((Rect.unit (s := S512x128) ![0, 0] ![512, 128] inb_S512x128_S512x128_0_0).idx (ix2 b j)) = _
    rw [harg1.read_unread]
    refine Eq.trans (congrArg x0 (funext fun a => Fin.ext ?_)) ((Gblk_dense x0 x1 b j).symm.trans (congrArg (Gblk x0 x1) (funext fun a => Fin.ext ?_)))
    · match a with
      | ⟨0, _⟩ => show 0 + 1 * b.val = b.val; omega
      | ⟨1, _⟩ => show 0 + 1 * j.val = j.val; omega
    · match a with
      | ⟨0, _⟩ => show b.val = 0 + 1 * b.val; omega
      | ⟨1, _⟩ => show j.val = 0 + 1 * j.val; omega

/-- THE BLOCK: what the body leaves in its output block is `Gblk` of its two input blocks. -/
theorem block_eq (c : Dev nD) (i : grid0.Coords)
    (arg1 : Memref sig .tc .vmem S512x128 .f32) (harg1 : arg1.IsWhole)
    (arg2 : Memref sig .tc .vmem S512x26x128 .f32) (harg2 : arg2.IsWhole)
    (arg3 : Memref sig .tc .vmem S512x506 .f32) (harg3 : arg3.IsWhole)
    (x0 : Vec Ideal S512x128 .f32) (x1 : Vec Ideal S512x26x128 .f32) :
    out0_A_2 (F := Ideal) c i arg1 harg1 arg2 harg2 arg3 harg3 x0 x1 = Gblk x0 x1 := by
  unfold out0_A_2
  rw [View.read_writes_eq_canon _ _ _ (cover0_A_2 c i arg1 harg1 arg2 harg2 arg3 harg3 x0 x1)]
  funext y
  exact View.canon_apply_of_pieces (Gblk x0 x1) _ (run_pieces c i arg1 harg1 arg2 harg2 arg3 harg3 x0 x1) y
    (cover0_A_2 c i arg1 harg1 arg2 harg2 arg3 harg3 x0 x1 y)

end Cert.KSide

end
-- ==== Proof.KArray.lean ====
/-
  From one output block to the whole result array.

  The grid has 64 points along the batch axis. Point `t` reads rows `512 q … 512 q + 511` of the two arguments,
  `q` its block index, and writes back rows `512 q … 512 q + 511` of the result, all 506 columns. The function of
  one block (`Gblk`) is the specification's `G` on 512 batch rows: row `b` of the block is row `512 q + b` of the
  array, and neither function mixes rows. So, granted that the body leaves `Gblk` of its input blocks in the output
  block, what point `t` writes back is block `t` of `G` of the arguments; the 64 blocks cover the array (row `r`
  lies in the block of index `r / 512`), so the array ends holding `G` of the arguments.
-/
import proofs.«168852_j40389872451968_2_alg».proof.Proof.Gen.KernelIdeal.Value
import proofs.«168852_j40389872451968_2_alg».proof.Proof.KBlockDef
import proofs.«168852_j40389872451968_2_alg».proof.Proof.Spec
import Idealize.ShloMosaic.Lib.Pipeline.Value
import Idealize.ShloMosaic.Lib.ValueIdx

noncomputable section

namespace Cert.KSide

open Idealize.ShloMosaic Idealize.ShloMosaic.TcCoe Idealize.SL.Sem Cert.KernelIdeal Cert.KernelIdeal.Gen Idealize.ShloMosaic.ValueIdx
open Idealize.ShloMosaic.Pipeline (Dat)
open scoped BigOperators

/-! ## The two functions at an index, the coordinates named -/

/-- `G` at an index in the first 128 columns. -/
theorem G_apply_lo (D : FVec Ideal ⟨2, ![32768, 128]⟩ .f32) (Sp : FVec Ideal ⟨3, ![32768, 26, 128]⟩ .f32)
    (I : (⟨2, ![32768, 506]⟩ : Shape).Idx) (B : Fin 32768) (d : Fin 128) (hB : B.val = (I 0).val) (hd : d.val = (I 1).val) :
    Cert.Spec.G D Sp I = D (ix2 B d) := by
  have h : (I 1).val < 128 := by have := d.isLt; omega
  obtain rfl : B = ⟨(I 0).val, idx2_lt0 I⟩ := Fin.ext hB
  obtain rfl : d = ⟨(I 1).val, h⟩ := Fin.ext hd
  unfold Cert.Spec.G
  rw [dif_pos h]

/-- `G` at an index past the first 128 columns. -/
theorem G_apply_hi (D : FVec Ideal ⟨2, ![32768, 128]⟩ .f32) (Sp : FVec Ideal ⟨3, ![32768, 26, 128]⟩ .f32)
    (I : (⟨2, ![32768, 506]⟩ : Shape).Idx) (B : Fin 32768) (P : Fin 378) (hB : B.val = (I 0).val) (hP : P.val + 128 = (I 1).val) :
    Cert.Spec.G D Sp I = ∑ d : Fin 128, Cert.Spec.feat D Sp B (Cert.Spec.triRow P) d * Cert.Spec.feat D Sp B (Cert.Spec.triCol P) d := by
  have h : ¬(I 1).val < 128 := by omega
  obtain rfl : B = ⟨(I 0).val, idx2_lt0 I⟩ := Fin.ext hB
  have hlt : (I 1).val - 128 < 378 := (show ∀ n, n < 506 → n - 128 < 378 from fun n hn => by omega) _ (idx2_lt1 I)
  obtain rfl : P = ⟨(I 1).val - 128, hlt⟩ := Fin.ext (by show P.val = (I 1).val - 128; omega)
  unfold Cert.Spec.G
  rw [dif_neg h]

/-- `Gblk` at an index in the first 128 columns. -/
theorem Gblk_apply_lo (x0 : FVec Ideal S512x128 .f32) (x1 : FVec Ideal S512x26x128 .f32)
    (y : S512x506.Idx) (b : Fin 512) (d : Fin 128) (hb : b.val = (y 0).val) (hd : d.val = (y 1).val) :
    Gblk x0 x1 y = x0 (ix2 b d) := by
  have h : (y 1).val < 128 := by have := d.isLt; omega
  obtain rfl : b = ⟨(y 0).val, idx2_lt0 y⟩ := Fin.ext hb
  obtain rfl : d = ⟨(y 1).val, h⟩ := Fin.ext hd
  unfold Gblk
  rw [dif_pos h]

/-- `Gblk` at an index past the first 128 columns. -/
theorem Gblk_apply_hi (x0 : FVec Ideal S512x128 .f32) (x1 : FVec Ideal S512x26x128 .f32)
    (y : S512x506.Idx) (b : Fin 512) (P : Fin 378) (hb : b.val = (y 0).val) (hP : P.val + 128 = (y 1).val) :
    Gblk x0 x1 y = ∑ d : Fin 128, featBlk x0 x1 b (Cert.Spec.triRow P) d * featBlk x0 x1 b (Cert.Spec.triCol P) d := by
  have h : ¬(y 1).val < 128 := by omega
  obtain rfl : b = ⟨(y 0).val, idx2_lt0 y⟩ := Fin.ext hb
  have hlt : (y 1).val - 128 < 378 := (show ∀ n, n < 506 → n - 128 < 378 from fun n hn => by omega) _ (idx2_lt1 y)
  obtain rfl : P = ⟨(y 1).val - 128, hlt⟩ := Fin.ext (by show P.val = (y 1).val - 128; omega)
  unfold Gblk
  rw [dif_neg h]

/-! ## A block of rows of the arguments gives the block of rows of `G` -/

/-- If `x0` and `x1` are rows `512 q … 512 q + 511` of `D` and `Sp`, a block row's feature vectors are the array row's. -/
theorem featBlk_eq_feat (D : FVec Ideal ⟨2, ![32768, 128]⟩ .f32) (Sp : FVec Ideal ⟨3, ![32768, 26, 128]⟩ .f32)
    (x0 : FVec Ideal S512x128 .f32) (x1 : FVec Ideal S512x26x128 .f32) (q : Nat)
    (h0 : ∀ (b : Fin 512) (d : Fin 128) (B : Fin 32768), B.val = q * 512 + b.val → x0 (ix2 b d) = D (ix2 B d))
    (h1 : ∀ (b : Fin 512) (n : Fin 26) (d : Fin 128) (B : Fin 32768), B.val = q * 512 + b.val → x1 (ix3 b n d) = Sp (ix3 B n d))
    (b : Fin 512) (B : Fin 32768) (hB : B.val = q * 512 + b.val) (n : Fin 27) (d : Fin 128) :
    featBlk x0 x1 b n d = Cert.Spec.feat D Sp B n d := by
  unfold featBlk Cert.Spec.feat
  by_cases h : n.val = 0
  · rw [dif_pos h, dif_pos h]; exact h0 b d B hB
  · rw [dif_neg h, dif_neg h]; exact h1 b _ d B hB

/-- … and `Gblk` of the two blocks, at `y`, is `G` of the two arrays at row `512 q + y 0`, column `y 1`. -/
theorem Gblk_eq_G (D : FVec Ideal ⟨2, ![32768, 128]⟩ .f32) (Sp : FVec Ideal ⟨3, ![32768, 26, 128]⟩ .f32)
    (x0 : FVec Ideal S512x128 .f32) (x1 : FVec Ideal S512x26x128 .f32) (q : Nat)
    (h0 : ∀ (b : Fin 512) (d : Fin 128) (B : Fin 32768), B.val = q * 512 + b.val → x0 (ix2 b d) = D (ix2 B d))
    (h1 : ∀ (b : Fin 512) (n : Fin 26) (d : Fin 128) (B : Fin 32768), B.val = q * 512 + b.val → x1 (ix3 b n d) = Sp (ix3 B n d))
    (y : S512x506.Idx) (I : (⟨2, ![32768, 506]⟩ : Shape).Idx) (hI0 : (I 0).val = q * 512 + (y 0).val) (hI1 : (I 1).val = (y 1).val) :
    Gblk x0 x1 y = Cert.Spec.G D Sp I := by
  have hB : (⟨(I 0).val, idx2_lt0 I⟩ : Fin 32768).val = q * 512 + (⟨(y 0).val, idx2_lt0 y⟩ : Fin 512).val := hI0
  by_cases h : (y 1).val < 128
  · rw [Gblk_apply_lo x0 x1 y ⟨(y 0).val, idx2_lt0 y⟩ ⟨(y 1).val, h⟩ rfl rfl,
      G_apply_lo D Sp I ⟨(I 0).val, idx2_lt0 I⟩ ⟨(y 1).val, h⟩ rfl hI1.symm]
    exact h0 _ _ _ hB
  · have hP : (y 1).val - 128 < 378 := by have := idx2_lt1 y; omega
    rw [Gblk_apply_hi x0 x1 y ⟨(y 0).val, idx2_lt0 y⟩ ⟨(y 1).val - 128, hP⟩ rfl (by show (y 1).val - 128 + 128 = (y 1).val; omega),
      G_apply_hi D Sp I ⟨(I 0).val, idx2_lt0 I⟩ ⟨(y 1).val - 128, hP⟩ rfl (by show (y 1).val - 128 + 128 = (I 1).val; omega)]
    refine Finset.sum_congr rfl fun d _ => ?_
    rw [featBlk_eq_feat D Sp x0 x1 q h0 h1 _ _ hB, featBlk_eq_feat D Sp x0 x1 q h0 h1 _ _ hB]

/-! ## The windows' blocks -/

variable (m : (ℓ : Loc nD τ sig) → Buf (Elt Ideal) ℓ) (ρ : Dev nD → PrngReg)

/-- The printed index maps over the grid: on the batch axis each input window's block index is the output's, which
    is below 64; on every other axis the block index is 0. -/
theorem idx_facts : ∀ t : Fin cfg0.N,
    win0_0.index t (0 : Fin 2) = win0_2.index t (0 : Fin 2) ∧ win0_0.index t (1 : Fin 2) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 63 :=
  (by decide +kernel : ∀ t : Fin grid0.N, _)

/-- Every block index below 64 is some point's. -/
theorem idx_onto : ∀ q : Fin 64, ∃ t : Fin cfg0.N, win0_2.index t = ![q.val, 0] :=
  (by decide +kernel : ∀ q : Fin 64, ∃ t : Fin grid0.N, win0_2.index t = ![q.val, 0])

/-- Input block 0 at point `t` is rows `512 q … 512 q + 511` of the dense argument, `q` the output's block index. -/
theorem iblk0_apply (c : Dev nD) (t : Fin cfg0.N) (b : Fin 512) (d : Fin 128) (B : Fin 32768)
    (hB : B.val = win0_2.index t (0 : Fin 2) * 512 + b.val) :
    (iblk m c 0 t : Vec Ideal S512x128 .f32) (ix2 b d) = (V m c main_arg0 : S32768x128.Idx → EReal) (ix2 B d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * b.val = B.val; omega
  | ⟨1, _⟩ => show win0_0.index t (1 : Fin 2) * 128 + 1 * d.val = d.val; omega

/-- Input block 1 at point `t` is rows `512 q … 512 q + 511` of the sparse argument. -/
theorem iblk1_apply (c : Dev nD) (t : Fin cfg0.N) (b : Fin 512) (n : Fin 26) (d : Fin 128) (B : Fin 32768)
    (hB : B.val = win0_2.index t (0 : Fin 2) * 512 + b.val) :
    (iblk m c 1 t : Vec Ideal S512x26x128 .f32) (ix3 b n d) = (V m c main_arg1 : S32768x26x128.Idx → EReal) (ix3 B n d) := by
  obtain ⟨-, -, e2, e3, e4, -⟩ := idx_facts t
  unfold iblk
  rw [View.read_apply]
  show V m c main_arg1 _ = V m c main_arg1 _
  congr 1
  funext a
  apply Fin.ext
  match a with
  | ⟨0, _⟩ => show win0_1.index t (0 : Fin 3) * 512 + 1 * b.val = B.val; omega
  | ⟨1, _⟩ => show win0_1.index t (1 : Fin 3) * 26 + 1 * n.val = n.val; omega
  | ⟨2, _⟩ => show win0_1.index t (2 : Fin 3) * 128 + 1 * d.val = d.val; omega

/-! ## What a point writes back, the cover, the array -/

/-- What point `t` writes back is block `t` of `G` of the argument arrays as the region finds them. -/
theorem flushed_eq (hblock : ∀ (c : Dev nD) (i : grid0.Coords) (arg1 : Memref sig .tc .vmem S512x128 .f32) (harg1 : arg1.IsWhole)
      (arg2 : Memref sig .tc .vmem S512x26x128 .f32) (harg2 : arg2.IsWhole) (arg3 : Memref sig .tc .vmem S512x506 .f32) (harg3 : arg3.IsWhole)
      (x0 : Vec Ideal S512x128 .f32) (x1 : Vec Ideal S512x26x128 .f32),
      out0_A_2 (F := Ideal) c i arg1 harg1 arg2 harg2 arg3 harg3 x0 x1 = Gblk x0 x1)
    (c : Dev nD) (t : Fin cfg0.N) :
    (dats m 0 c).flushed 2 t
      = ((cfg0.win 2).blk t).view.read (Elt Ideal) (Cert.Spec.G (V m c main_arg0) (V m c main_arg1)) := by
  rw [Value.flushed2_A, hblock]
  show (cfg0.win 2).cut (grid0.coords t) (Gblk (iblk m c 0 t) (iblk m c 1 t))
    = ((cfg0.win 2).blk t).view.read (Elt Ideal) (Cert.Spec.G (V m c main_arg0) (V m c main_arg1))
  obtain ⟨-, -, -, -, -, e5, -⟩ := idx_facts t
  funext y
  refine Gblk_eq_G (V m c main_arg0) (V m c main_arg1) (iblk m c 0 t) (iblk m c 1 t) (win0_2.index t (0 : Fin 2))
    (fun b d B hB => iblk0_apply m c t b d B hB) (fun b n d B hB => iblk1_apply m c t b n d B hB) _ _ ?_ ?_
  · show win0_2.index t (0 : Fin 2) * 512 + 1 * (y 0).val = win0_2.index t (0 : Fin 2) * 512 + (y 0).val
    omega
  · show win0_2.index t (1 : Fin 2) * 506 + 1 * (y 1).val = (y 1).val
    omega

/-- An index of the array is in point `t`'s block iff each coordinate is in the block's range on its axis. -/
theorem mem_blk (t : Fin cfg0.N) (i : S32768x506.Idx) :
    i ∈ ((cfg0.win 2).blk t).view.set ↔ ∀ a : Fin 2, win0_2.index t a * S512x506.size a ≤ (i a).val ∧ (i a).val < win0_2.index t a * S512x506.size a + S512x506.size a := by
  show i ∈ ((View.whole main_v0).slice (win0_2.rect t)).set ↔ _
  rw [View.set_slice_whole, Rect.mem_set_unit]
  exact Iff.rfl

/-- Every index of the array is in some point's block: row `r` in the block of index `r / 512`. -/
theorem cover (i : S32768x506.Idx) :
    ∃ t : Fin cfg0.N, (cfg0.win 2).flush t = true ∧ i ∈ ((cfg0.win 2).blk t).view.set := by
  have hi0 : (i 0).val < 32768 := (i 0).isLt
  have hi1 : (i 1).val < 506 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 506 ≤ (i 1).val ∧ (i 1).val < win0_2.index t (1 : Fin 2) * 506 + 506
    omega

/-- The result array after the run: `G` of the arguments. -/
theorem final (hblock : ∀ (c : Dev nD) (i : grid0.Coords) (arg1 : Memref sig .tc .vmem S512x128 .f32) (harg1 : arg1.IsWhole)
      (arg2 : Memref sig .tc .vmem S512x26x128 .f32) (harg2 : arg2.IsWhole) (arg3 : Memref sig .tc .vmem S512x506 .f32) (harg3 : arg3.IsWhole)
      (x0 : Vec Ideal S512x128 .f32) (x1 : Vec Ideal S512x26x128 .f32),
      out0_A_2 (F := Ideal) c i arg1 harg1 arg2 harg2 arg3 harg3 x0 x1 = Gblk x0 x1)
    (c : Dev nD) :
    (dats m 0 c).arrAt 2 cfg0.N
      = Cert.Spec.G (m ((c.tc : Thread nD τ).loc main_arg0)) (m ((c.tc : Thread nD τ).loc main_arg1)) :=
  (dats m 0 c).arrAt_eq_of_cover 2 (Cert.Spec.G (V m c main_arg0) (V m c main_arg1))
    (fun t _ => flushed_eq m hblock c t) cover

/-! ## The run -/

/-- Granted the body's block, every weakly fair execution of @main terminates with the result array at `G` of the
    arguments, the arguments unchanged. -/
theorem run_of_block
    (hblock : ∀ (c : Dev nD) (i : grid0.Coords) (arg1 : Memref sig .tc .vmem S512x128 .f32) (harg1 : arg1.IsWhole)
      (arg2 : Memref sig .tc .vmem S512x26x128 .f32) (harg2 : arg2.IsWhole) (arg3 : Memref sig .tc .vmem S512x506 .f32) (harg3 : arg3.IsWhole)
      (x0 : Vec Ideal S512x128 .f32) (x1 : Vec Ideal S512x26x128 .f32),
      out0_A_2 (F := Ideal) c i arg1 harg1 arg2 harg2 arg3 harg3 x0 x1 = Gblk x0 x1)
    (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v0) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final m hblock c), (h c).2⟩) (Value.run_blocks m ρ)

end Cert.KSide

end
-- ==== Proof.lean ====
/-
  The five claims of the certificate.

  Both idealized programs compute, on the extended reals, ONE function of the two argument arrays (`Cert.Spec.G`): row
  `b` of the 32768 × 506 result repeats the dense feature vector of batch row `b` in its first 128 columns, and column
  `128 + p` is the inner product of feature vectors `r` and `c` of that row, `(r, c)` the `p`-th pair `r ≤ c` of the upper
  triangle of a 27 × 27 matrix in row-major order — the 27 feature vectors being the dense one followed by the 26
  sparse ones.
  * The reference concatenates the vectors, multiplies the 27 × 128 matrix of each batch row by its own transpose and
    gathers the 378 upper-triangular entries (`Cert.RefSide.run`).
  * The kernel works on blocks of 512 batch rows. In each block it copies the dense vectors, and for each group of
    eight rows multiplies the 216 × 128 matrix of the group's 8 · 27 feature vectors by its own transpose, keeps the
    eight 27 × 27 diagonal blocks of the 216 × 216 product — the products of two vectors of ONE batch row — and lays
    out their upper triangles (`Cert.KSide.block_eq`); the 64 blocks tile the result (`Cert.KSide.run_of_block`).
  The two sums over the 128 coordinates are the same sum term by term, so no law of arithmetic is needed and the
  finiteness of the inputs is never used; rounding an operand to a shorter float format is the identity on the
  extended reals, and a product accumulated into zero is the product.
  The idealization rewrote no operation, so `preserves` is `True`; the three frames are the generated frame runs (the
  reference's is its run with the result forgotten).
-/
import proofs.«168852_j40389872451968_2_alg».proof.Defs
import proofs.«168852_j40389872451968_2_alg».proof.Proof.Gen.Kernel
import proofs.«168852_j40389872451968_2_alg».proof.Proof.Gen.Kernel.Frame
import proofs.«168852_j40389872451968_2_alg».proof.Proof.Gen.KernelIdeal
import proofs.«168852_j40389872451968_2_alg».proof.Proof.Gen.KernelIdeal.Frame
import proofs.«168852_j40389872451968_2_alg».proof.Proof.Gen.KernelIdeal.Value
import proofs.«168852_j40389872451968_2_alg».proof.Proof.Gen.ReferenceIdeal
import proofs.«168852_j40389872451968_2_alg».proof.Proof.Gen.Pre_finite_inputs
import proofs.«168852_j40389872451968_2_alg».proof.Proof.RefValue
import proofs.«168852_j40389872451968_2_alg».proof.Proof.KBlock
import proofs.«168852_j40389872451968_2_alg».proof.Proof.KArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- Both runs end with the result array at `Cert.Spec.G` of the arguments, and the arguments agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KSide.run_of_block Cert.KSide.block_eq m ρ, ?_⟩
  refine (θ_run Cert.ReferenceIdeal.defs _ _).mono (fun _ h c => ⟨(h c).1.trans ?_, (h c).2⟩) (Cert.RefSide.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
